-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel

variable [Facts]

def fn {F : FTy → Type} [FloatOps F] (main_arg0 : FVec F S1048576x4 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  main_v3
-- ==== Kernel.lean ====
abbrev S1048576x4 : Shape := ⟨2, ![1048576, 4]⟩
abbrev S4x1048576 : Shape := ⟨2, ![4, 1048576]⟩
abbrev S4x8192x128 : Shape := ⟨3, ![4, 8192, 128]⟩
abbrev S4x1024x128 : Shape := ⟨3, ![4, 1024, 128]⟩
abbrev S1x1024x128 : Shape := ⟨3, ![1, 1024, 128]⟩
abbrev S1024x128 : Shape := ⟨2, ![1024, 128]⟩

abbrev nBuf : Space → Nat
  | .hbm => 6
  | .vmem => 4
  | .smem => 0
  | _ => 0

abbrev bufTy : (tb : Table) → Fin (tcTables nBuf tb) → BufTy
  | .hbm, ⟨0, _⟩ => ⟨S1048576x4, .f32⟩
  | .hbm, ⟨1, _⟩ => ⟨S4x1048576, .f32⟩
  | .hbm, ⟨2, _⟩ => ⟨S4x8192x128, .f32⟩
  | .hbm, ⟨3, _⟩ => ⟨S4x8192x128, .f32⟩
  | .hbm, ⟨4, _⟩ => ⟨S4x1048576, .f32⟩
  | .hbm, ⟨5, _⟩ => ⟨S1048576x4, .f32⟩
  | .local _ .vmem, ⟨0, _⟩ => ⟨S4x1024x128, .f32⟩
  | .local _ .vmem, ⟨1, _⟩ => ⟨S4x1024x128, .f32⟩
  | .local _ .vmem, ⟨2, _⟩ => ⟨S4x1024x128, .f32⟩
  | .local _ .vmem, ⟨3, _⟩ => ⟨S4x1024x128, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S1048576x4_S4x1048576_1_0 : S1048576x4.Transposes [1, 0] S4x1048576
  shapeCasts_S4x1048576_S4x8192x128 : S4x1048576.ShapeCasts S4x8192x128
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4x1024x128 : S4x1024x128.ShapeCasts S4x1024x128
  slices_S4x1024x128_o0_0_0_S1x1024x128 : S4x1024x128.Slices ![0, 0, 0] S1x1024x128
  shapeCasts_S1x1024x128_S1024x128 : S1x1024x128.ShapeCasts S1024x128
  slices_S4x1024x128_o1_0_0_S1x1024x128 : S4x1024x128.Slices ![1, 0, 0] S1x1024x128
  slices_S4x1024x128_o2_0_0_S1x1024x128 : S4x1024x128.Slices ![2, 0, 0] S1x1024x128
  slices_S4x1024x128_o3_0_0_S1x1024x128 : S4x1024x128.Slices ![3, 0, 0] S1x1024x128
  inb_S4x1024x128_S1x1024x128_0_0_0 : ∀ a, (![0, 0, 0] : Fin 3 → Nat) a + S1x1024x128.size a ≤ S4x1024x128.size a
  h_S1x1024x128 : 0 < S1x1024x128.numel
  shapeCasts_S1024x128_S1x1024x128 : S1024x128.ShapeCasts S1x1024x128
  inb_S4x1024x128_S1x1024x128_1_0_0 : ∀ a, (![1, 0, 0] : Fin 3 → Nat) a + S1x1024x128.size a ≤ S4x1024x128.size a
  inb_S4x1024x128_S1x1024x128_2_0_0 : ∀ a, (![2, 0, 0] : Fin 3 → Nat) a + S1x1024x128.size a ≤ S4x1024x128.size a
  inb_S4x1024x128_S1x1024x128_3_0_0 : ∀ a, (![3, 0, 0] : Fin 3 → Nat) a + S1x1024x128.size a ≤ S4x1024x128.size a
  shapeCasts_S4x8192x128_S4x1048576 : S4x8192x128.ShapeCasts S4x1048576
  transposes_S4x1048576_S1048576x4_1_0 : S4x1048576.Transposes [1, 0] S1048576x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S4x8192x128.size a
  hwx0_0 : ∀ i : grid0.Coords, EltTy.bits .f32 = 32 ∨ (Rect.block (s := S4x8192x128) S4x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x128.size a ≤ S4x8192x128.size a
  hwx0_1 : ∀ i : grid0.Coords, EltTy.bits .f32 = 32 ∨ (Rect.block (s := S4x8192x128) S4x1024x128.size (cc0_transform_1 i) (hinb0_1 i)).WholeWords (EltTy.packing .f32)

variable [Facts₀]

abbrev win0_0 : Pipeline.Window sig grid0 :=
  Pipeline.Window.ofSpec (Memref.whole main_v1) S4x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S16 : Shape := ⟨1, ![16]⟩
abbrev S16x4 : Shape := ⟨2, ![16, 4]⟩
abbrev S_ : Shape := ⟨0, ![]⟩
abbrev S1048576x1 : Shape := ⟨2, ![1048576, 1]⟩
abbrev S1048576 : Shape := ⟨1, ![1048576]⟩
abbrev S1048576x2 : Shape := ⟨2, ![1048576, 2]⟩
abbrev S1048576x1x1 : Shape := ⟨3, ![1048576, 1, 1]⟩
abbrev S1048576x1x2 : Shape := ⟨3, ![1048576, 1, 2]⟩
abbrev S1048576x2x1 : Shape := ⟨3, ![1048576, 2, 1]⟩
abbrev S1048576x2x2 : Shape := ⟨3, ![1048576, 2, 2]⟩
abbrev S1048576x4x1 : Shape := ⟨3, ![1048576, 4, 1]⟩
abbrev S1048576x4x2 : Shape := ⟨3, ![1048576, 4, 2]⟩
abbrev S1048576x8 : Shape := ⟨2, ![1048576, 8]⟩
abbrev S1048576x8x1 : Shape := ⟨3, ![1048576, 8, 1]⟩
abbrev S1048576x8x2 : Shape := ⟨3, ![1048576, 8, 2]⟩
abbrev S1048576x16 : Shape := ⟨2, ![1048576, 16]⟩
abbrev S16x1 : Shape := ⟨2, ![16, 1]⟩

abbrev nBuf : Space → Nat
  | .hbm => 75
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S16, .i32⟩
  | .hbm, ⟨2, _⟩ => ⟨S16x4, .f32⟩
  | .hbm, ⟨3, _⟩ => ⟨S_, .f32⟩
  | .hbm, ⟨4, _⟩ => ⟨S1048576x4, .f32⟩
  | .hbm, ⟨5, _⟩ => ⟨S1048576x4, .f32⟩
  | .hbm, ⟨6, _⟩ => ⟨S_, .f32⟩
  | .hbm, ⟨7, _⟩ => ⟨S1048576x4, .f32⟩
  | .hbm, ⟨8, _⟩ => ⟨S1048576x4, .f32⟩
  | .hbm, ⟨9, _⟩ => ⟨S1048576x4, .f32⟩
  | .hbm, ⟨10, _⟩ => ⟨S1048576x4, .f32⟩
  | .hbm, ⟨11, _⟩ => ⟨S_, .f32⟩
  | .hbm, ⟨12, _⟩ => ⟨S1048576x1, .f32⟩
  | .hbm, ⟨13, _⟩ => ⟨S1048576x1, .f32⟩
  | .hbm, ⟨14, _⟩ => ⟨S1048576, .f32⟩
  | .hbm, ⟨15, _⟩ => ⟨S1048576x1, .f32⟩
  | .hbm, ⟨16, _⟩ => ⟨S1048576, .f32⟩
  | .hbm, ⟨17, _⟩ => ⟨S1048576x1, .f32⟩
  | .hbm, ⟨18, _⟩ => ⟨S1048576x1, .f32⟩
  | .hbm, ⟨19, _⟩ => ⟨S1048576x2, .f32⟩
  | .hbm, ⟨20, _⟩ => ⟨S1048576x1x1, .f32⟩
  | .hbm, ⟨21, _⟩ => ⟨S1048576x1x2, .f32⟩
  | .hbm, ⟨22, _⟩ => ⟨S1048576x1x2, .f32⟩
  | .hbm, ⟨23, _⟩ => ⟨S1048576x1x2, .f32⟩
  | .hbm, ⟨24, _⟩ => ⟨S1048576x2, .f32⟩
  | .hbm, ⟨25, _⟩ => ⟨S1048576x1, .f32⟩
  | .hbm, ⟨26, _⟩ => ⟨S1048576, .f32⟩
  | .hbm, ⟨27, _⟩ => ⟨S1048576x1, .f32⟩
  | .hbm, ⟨28, _⟩ => ⟨S1048576, .f32⟩
  | .hbm, ⟨29, _⟩ => ⟨S1048576x1, .f32⟩
  | .hbm, ⟨30, _⟩ => ⟨S1048576x1, .f32⟩
  | .hbm, ⟨31, _⟩ => ⟨S1048576x2, .f32⟩
  | .hbm, ⟨32, _⟩ => ⟨S1048576x2x1, .f32⟩
  | .hbm, ⟨33, _⟩ => ⟨S1048576x1x2, .f32⟩
  | .hbm, ⟨34, _⟩ => ⟨S1048576x2x2, .f32⟩
  | .hbm, ⟨35, _⟩ => ⟨S1048576x2x2, .f32⟩
  | .hbm, ⟨36, _⟩ => ⟨S1048576x2x2, .f32⟩
  | .hbm, ⟨37, _⟩ => ⟨S1048576x4, .f32⟩
  | .hbm, ⟨38, _⟩ => ⟨S1048576x1, .f32⟩
  | .hbm, ⟨39, _⟩ => ⟨S1048576, .f32⟩
  | .hbm, ⟨40, _⟩ => ⟨S1048576x1, .f32⟩
  | .hbm, ⟨41, _⟩ => ⟨S1048576, .f32⟩
  | .hbm, ⟨42, _⟩ => ⟨S1048576x1, .f32⟩
  | .hbm, ⟨43, _⟩ => ⟨S1048576x1, .f32⟩
  | .hbm, ⟨44, _⟩ => ⟨S1048576x2, .f32⟩
  | .hbm, ⟨45, _⟩ => ⟨S1048576x4x1, .f32⟩
  | .hbm, ⟨46, _⟩ => ⟨S1048576x1x2, .f32⟩
  | .hbm, ⟨47, _⟩ => ⟨S1048576x4x2, .f32⟩
  | .hbm, ⟨48, _⟩ => ⟨S1048576x4x2, .f32⟩
  | .hbm, ⟨49, _⟩ => ⟨S1048576x4x2, .f32⟩
  | .hbm, ⟨50, _⟩ => ⟨S1048576x8, .f32⟩
  | .hbm, ⟨51, _⟩ => ⟨S1048576x1, .f32⟩
  | .hbm, ⟨52, _⟩ => ⟨S1048576, .f32⟩
  | .hbm, ⟨53, _⟩ => ⟨S1048576x1, .f32⟩
  | .hbm, ⟨54, _⟩ => ⟨S1048576, .f32⟩
  | .hbm, ⟨55, _⟩ => ⟨S1048576x1, .f32⟩
  | .hbm, ⟨56, _⟩ => ⟨S1048576x1, .f32⟩
  | .hbm, ⟨57, _⟩ => ⟨S1048576x2, .f32⟩
  | .hbm, ⟨58, _⟩ => ⟨S1048576x8x1, .f32⟩
  | .hbm, ⟨59, _⟩ => ⟨S1048576x1x2, .f32⟩
  | .hbm, ⟨60, _⟩ => ⟨S1048576x8x2, .f32⟩
  | .hbm, ⟨61, _⟩ => ⟨S1048576x8x2, .f32⟩
  | .hbm, ⟨62, _⟩ => ⟨S1048576x8x2, .f32⟩
  | .hbm, ⟨63, _⟩ => ⟨S1048576x16, .f32⟩
  | .hbm, ⟨64, _⟩ => ⟨S_, .i32⟩
  | .hbm, ⟨65, _⟩ => ⟨S16, .i32⟩
  | .hbm, ⟨66, _⟩ => ⟨S16, .i1⟩
  | .hbm, ⟨67, _⟩ => ⟨S_, .i32⟩
  | .hbm, ⟨68, _⟩ => ⟨S16, .i32⟩
  | .hbm, ⟨69, _⟩ => ⟨S16, .i32⟩
  | .hbm, ⟨70, _⟩ => ⟨S16, .i32⟩
  | .hbm, ⟨71, _⟩ => ⟨S16x1, .i32⟩
  | .hbm, ⟨72, _⟩ => ⟨S1048576x16, .f32⟩
  | .hbm, ⟨73, _⟩ => ⟨S1048576x16, .f32⟩
  | .hbm, ⟨74, _⟩ => ⟨S1048576x4, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_c_3 : Ref sig .tc := ⟨.hbm, 64, rfl⟩
abbrev main_v58 : Ref sig .tc := ⟨.hbm, 65, rfl⟩
abbrev main_v59 : Ref sig .tc := ⟨.hbm, 66, rfl⟩
abbrev main_c_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩

abbrev nD : Nat := 1
abbrev τ : Topo := Topo.v7x

variable {F : FTy → Type} [FloatOps F]

class Facts₀ : Prop where
  bcast_S_S1048576x4 : S_.BroadcastsInDim S1048576x4 (![] : Fin 0 → Fin S1048576x4.rank)
  bcast_S_S1048576x1 : S_.BroadcastsInDim S1048576x1 (![] : Fin 0 → Fin S1048576x1.rank)
  slices_S1048576x4_S1048576x1_0_0 : S1048576x4.Slices ![0, 0] S1048576x1
  shapeCasts_S1048576x1_S1048576 : S1048576x1.ShapeCasts S1048576
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S1048576x1_S1048576x1x1_0_1 : S1048576x1.BroadcastsInDim S1048576x1x1 (![0, 1] : Fin 2 → Fin S1048576x1x1.rank)
  bcast_S1048576x2_S1048576x1x2_0_2 : S1048576x2.BroadcastsInDim S1048576x1x2 (![0, 2] : Fin 2 → Fin S1048576x1x2.rank)
  bcast_S1048576x1x1_S1048576x1x2_0_1_2 : S1048576x1x1.BroadcastsInDim S1048576x1x2 (![0, 1, 2] : Fin 3 → Fin S1048576x1x2.rank)
  shapeCasts_S1048576x1x2_S1048576x2 : S1048576x1x2.ShapeCasts S1048576x2
  slices_S1048576x4_S1048576x1_0_1 : S1048576x4.Slices ![0, 1] S1048576x1
  bcast_S1048576x2_S1048576x2x1_0_1 : S1048576x2.BroadcastsInDim S1048576x2x1 (![0, 1] : Fin 2 → Fin S1048576x2x1.rank)
  bcast_S1048576x2x1_S1048576x2x2_0_1_2 : S1048576x2x1.BroadcastsInDim S1048576x2x2 (![0, 1, 2] : Fin 3 → Fin S1048576x2x2.rank)
  bcast_S1048576x1x2_S1048576x2x2_0_1_2 : S1048576x1x2.BroadcastsInDim S1048576x2x2 (![0, 1, 2] : Fin 3 → Fin S1048576x2x2.rank)
  shapeCasts_S1048576x2x2_S1048576x4 : S1048576x2x2.ShapeCasts S1048576x4
  slices_S1048576x4_S1048576x1_0_2 : S1048576x4.Slices ![0, 2] S1048576x1
  bcast_S1048576x4_S1048576x4x1_0_1 : S1048576x4.BroadcastsInDim S1048576x4x1 (![0, 1] : Fin 2 → Fin S1048576x4x1.rank)
  bcast_S1048576x4x1_S1048576x4x2_0_1_2 : S1048576x4x1.BroadcastsInDim S1048576x4x2 (![0, 1, 2] : Fin 3 → Fin S1048576x4x2.rank)
  bcast_S1048576x1x2_S1048576x4x2_0_1_2 : S1048576x1x2.BroadcastsInDim S1048576x4x2 (![0, 1, 2] : Fin 3 → Fin S1048576x4x2.rank)
  shapeCasts_S1048576x4x2_S1048576x8 : S1048576x4x2.ShapeCasts S1048576x8
  slices_S1048576x4_S1048576x1_0_3 : S1048576x4.Slices ![0, 3] S1048576x1
  bcast_S1048576x8_S1048576x8x1_0_1 : S1048576x8.BroadcastsInDim S1048576x8x1 (![0, 1] : Fin 2 → Fin S1048576x8x1.rank)
  bcast_S1048576x8x1_S1048576x8x2_0_1_2 : S1048576x8x1.BroadcastsInDim S1048576x8x2 (![0, 1, 2] : Fin 3 → Fin S1048576x8x2.rank)
  bcast_S1048576x1x2_S1048576x8x2_0_1_2 : S1048576x1x2.BroadcastsInDim S1048576x8x2 (![0, 1, 2] : Fin 3 → Fin S1048576x8x2.rank)
  shapeCasts_S1048576x8x2_S1048576x16 : S1048576x8x2.ShapeCasts S1048576x16
  bcast_S_S16 : S_.BroadcastsInDim S16 (![] : Fin 0 → Fin S16.rank)
  bcast_S16_S16x1_0 : S16.BroadcastsInDim S16x1 (![0] : Fin 1 → Fin S16x1.rank)
  gather_S1048576x16_S16x1_S1048576x16_0_1_n_n_1_1_10485761_wf : GatherDims.WF S1048576x16 S16x1 S1048576x16 [0] [1] [] [1] [] 1 ![1048576, 1]
  dot_S1048576x16_S16x4_S1048576x4_1_0_0_1_n_n_wf : DotDims.WF S1048576x16 S16x4 S1048576x4 [1] [0] [0] [1] [] []

variable [Facts₀]

def gather_S1048576x16_S16x1_S1048576x16_0_1_n_n_1_1_10485761 : GatherDims S1048576x16 S16x1 S1048576x16 where
  offsetDims := [0]
  collapsedSliceDims := [1]
  operandBatchingDims := []
  startIndicesBatchingDims := []
  startIndexMap := [1]
  indexVectorDim := 1
  sliceSizes := ![1048576, 1]
  wf := gather_S1048576x16_S16x1_S1048576x16_0_1_n_n_1_1_10485761_wf
def dot_S1048576x16_S16x4_S1048576x4_1_0_0_1_n_n : DotDims S1048576x16 S16x4 S1048576x4 where
  lhsContracting := [1]
  rhsContracting := [0]
  lhsNonContracting := [0]
  rhsNonContracting := [1]
  lhsBatch := []
  rhsBatch := []
  wf := dot_S1048576x16_S16x4_S1048576x4_1_0_0_1_n_n_wf

class Facts : Prop extends Facts₀ where

variable [Facts]
-- ==== Proof.Spec.lean ====
/-
  What both programs compute, as one function of the input array.

  The input is an array `x` of 1048576 rows and 4 columns. Write `c r j = cos (α · x[r, j])` with `α` the
  single-precision constant nearest to 1.57. Row `r` of the result holds four products of these cosines:
  column 0 is `c r 1 · c r 2 · c r 3`, column 1 is `c r 0 · c r 1`, column 2 is `c r 0 · c r 1 · c r 2` and
  column 3 is `c r 0 · c r 1 · c r 2 · c r 3`, each associated to the left. All arithmetic is on the
  extended reals.
-/
import Idealize.ShloMosaic.PureOps.Ideal
import Idealize.ShloMosaic.Lib.ValueIdx

noncomputable section

namespace Cert.Spec

open Idealize.ShloMosaic Idealize.ShloMosaic.ValueIdx

/-- The shape of the input and of the result: 1048576 rows of 4 columns. -/
abbrev SX : Shape := ⟨2, ![1048576, 4]⟩

/-- The angle scale, the single-precision constant nearest to 1.57. -/
def alpha : EReal := Ideal.ofBits .f32 0x3FC8F5C3#32

/-- `cos (α · x[r, j])`. -/
def c (x : FVec Ideal SX .f32) (r : Fin 1048576) (j : Fin 4) : EReal :=
  Ideal.cos (alpha * x (ix2 r j))

/-- Row `r` of the result, column by column. -/
def row (x : FVec Ideal SX .f32) (r : Fin 1048576) : Fin 4 → EReal
  | 0 => c x r 1 * c x r 2 * c x r 3
  | 1 => c x r 0 * c x r 1
  | 2 => c x r 0 * c x r 1 * c x r 2
  | 3 => c x r 0 * c x r 1 * c x r 2 * c x r 3

/-- The result array. -/
def G (x : FVec Ideal SX .f32) : FVec Ideal SX .f32 := fun i => row x (i 0) (i 1)

theorem G_apply (x : FVec Ideal SX .f32) (r : Fin 1048576) (j : Fin 4) : G x (ix2 r j) = row x r j := rfl

end Cert.Spec

end
-- ==== Proof.KernelBlock.lean ====
/-
  What the body leaves in the output block, as one function of the input block.

  The input block is four planes of 1024 rows and 128 lanes. With `cs A j r q = cos (α · A[j, r, q])`, plane 0 of
  the result is `cs 1 · cs 2 · cs 3`, plane 1 is `cs 0 · cs 1`, plane 2 is `cs 0 · cs 1 · cs 2` and plane 3 is
  `cs 0 · cs 1 · cs 2 · cs 3`, every product associated to the left, at the same row and lane. The same
  formula is stated for any number of rows, so that it also names the whole array's contents.
-/
import proofs.«150509_j23115513987349_2_alg».proof.Proof.Gen.KernelIdeal.Frame
import proofs.«150509_j23115513987349_2_alg».proof.Proof.Spec
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx

/-- `cos (α · A[j, r, q])` for a stack of four planes of `n` rows and 128 lanes. -/
def cs {n : Nat} (A : (⟨3, ![4, n, 128]⟩ : Shape).Idx → EReal) (j : Fin 4) (r : Fin n) (q : Fin 128) : EReal :=
  Ideal.cos (Cert.Spec.alpha * A (ix3 j r q))

/-- The four products at row `r` and lane `q`, by result plane. -/
def prods {n : Nat} (A : (⟨3, ![4, n, 128]⟩ : Shape).Idx → EReal) (r : Fin n) (q : Fin 128) : Fin 4 → EReal
  | 0 => cs A 1 r q * cs A 2 r q * cs A 3 r q
  | 1 => cs A 0 r q * cs A 1 r q
  | 2 => cs A 0 r q * cs A 1 r q * cs A 2 r q
  | 3 => cs A 0 r q * cs A 1 r q * cs A 2 r q * cs A 3 r q

/-- The result planes as one function of the input planes. -/
def planes {n : Nat} (A : (⟨3, ![4, n, 128]⟩ : Shape).Idx → EReal) : (⟨3, ![4, n, 128]⟩ : Shape).Idx → EReal :=
  fun i => prods A (i 1) (i 2) (i 0)

theorem planes_apply {n : Nat} (A : (⟨3, ![4, n, 128]⟩ : Shape).Idx → EReal) (j : Fin 4) (r : Fin n) (q : Fin 128) :
    planes A (ix3 j r q) = prods A r q j := rfl

theorem hz : (![0, 0, 0] : Fin 3 → Nat) = fun _ => 0 := funext fun a => by fin_cases a <;> rfl

/-- The cosine plane stack at an index. -/
theorem pay1_apply (x0 : Vec Ideal S4x1024x128 .f32) (j : Fin 4) (p : Fin 1024) (q : Fin 128) :
    k0_pay1 (F := Ideal) x0 (ix3 j p q) = cs x0 j p q := by
  unfold k0_pay1 cs Cert.Spec.alpha
  rw [shapeCast_self]
  rfl

/-- Plane `o` of a stack, with its unit axis dropped, at row `p` and lane `q`. -/
theorem plane_apply (v : FVec Ideal S4x1024x128 .f32) (o : Nat) (ho : o < 4)
    (h : S4x1024x128.Slices ![o, 0, 0] S1x1024x128) (h' : S1x1024x128.ShapeCasts S1024x128) (p : Fin 1024) (q : Fin 128) :
    shapeCast S1024x128 (extractStridedSlice S1x1024x128 ![o, 0, 0] v h) h' (ix2 p q) = v (ix3 (⟨o, ho⟩ : Fin 4) p q) :=
  (shapeCast_1ab_ab_apply _ h' p q).trans
    (extractStridedSlice_apply _ v h _ _ fun a => match a with
      | ⟨0, _⟩ => (Nat.add_zero o).symm
      | ⟨1, _⟩ => (Nat.zero_add p.val).symm
      | ⟨2, _⟩ => (Nat.zero_add q.val).symm)

theorem pay2_apply (x0 : Vec Ideal S4x1024x128 .f32) (p : Fin 1024) (q : Fin 128) :
    k0_pay2 (F := Ideal) x0 (ix2 p q) = cs x0 0 p q := by
  unfold k0_pay2
  exact (plane_apply (k0_pay1 x0) 0 (by decide) _ _ p q).trans (pay1_apply x0 0 p q)

theorem pay3_apply (x0 : Vec Ideal S4x1024x128 .f32) (p : Fin 1024) (q : Fin 128) :
    k0_pay3 (F := Ideal) x0 (ix2 p q) = cs x0 1 p q := by
  unfold k0_pay3
  exact (plane_apply (k0_pay1 x0) 1 (by decide) _ _ p q).trans (pay1_apply x0 1 p q)

theorem pay4_apply (x0 : Vec Ideal S4x1024x128 .f32) (p : Fin 1024) (q : Fin 128) :
    k0_pay4 (F := Ideal) x0 (ix2 p q) = cs x0 2 p q := by
  unfold k0_pay4
  exact (plane_apply (k0_pay1 x0) 2 (by decide) _ _ p q).trans (pay1_apply x0 2 p q)

theorem pay5_apply (x0 : Vec Ideal S4x1024x128 .f32) (p : Fin 1024) (q : Fin 128) :
    k0_pay5 (F := Ideal) x0 (ix2 p q) = cs x0 3 p q := by
  unfold k0_pay5
  exact (plane_apply (k0_pay1 x0) 3 (by decide) _ _ p q).trans (pay1_apply x0 3 p q)

/-- The four stored planes at an index. -/
theorem pay6_apply (x0 : Vec Ideal S4x1024x128 .f32) (u : Fin 1) (p : Fin 1024) (q : Fin 128) :
    k0_pay6 (F := Ideal) x0 (ix3 u p q) = prods x0 p q 0 := by
  unfold k0_pay6
  refine (shapeCast_ab_1ab_apply _ _ u p q).trans ?_
  show k0_pay3 x0 (ix2 p q) * k0_pay4 x0 (ix2 p q) * k0_pay5 x0 (ix2 p q) = _
  rw [pay3_apply, pay4_apply, pay5_apply]
  rfl

theorem pay7_apply (x0 : Vec Ideal S4x1024x128 .f32) (u : Fin 1) (p : Fin 1024) (q : Fin 128) :
    k0_pay7 (F := Ideal) x0 (ix3 u p q) = prods x0 p q 1 := by
  unfold k0_pay7
  refine (shapeCast_ab_1ab_apply _ _ u p q).trans ?_
  show k0_pay2 x0 (ix2 p q) * k0_pay3 x0 (ix2 p q) = _
  rw [pay2_apply, pay3_apply]
  rfl

theorem pay8_apply (x0 : Vec Ideal S4x1024x128 .f32) (u : Fin 1) (p : Fin 1024) (q : Fin 128) :
    k0_pay8 (F := Ideal) x0 (ix3 u p q) = prods x0 p q 2 := by
  unfold k0_pay8
  refine (shapeCast_ab_1ab_apply _ _ u p q).trans ?_
  show k0_pay2 x0 (ix2 p q) * k0_pay3 x0 (ix2 p q) * k0_pay4 x0 (ix2 p q) = _
  rw [pay2_apply, pay3_apply, pay4_apply]
  rfl

theorem pay9_apply (x0 : Vec Ideal S4x1024x128 .f32) (u : Fin 1) (p : Fin 1024) (q : Fin 128) :
    k0_pay9 (F := Ideal) x0 (ix3 u p q) = prods x0 p q 3 := by
  unfold k0_pay9
  refine (shapeCast_ab_1ab_apply _ _ u p q).trans ?_
  show k0_pay2 x0 (ix2 p q) * k0_pay3 x0 (ix2 p q) * k0_pay4 x0 (ix2 p q) * k0_pay5 x0 (ix2 p q) = _
  rw [pay2_apply, pay3_apply, pay4_apply, pay5_apply]
  rfl

/-- Where the store of plane `o` puts its element `(u, p, q)`: at `(o, p, q)` of the block. -/
theorem emb_plane (o : Nat) (ho : o < 4) (inb : ∀ a, (![o, 0, 0] : Fin 3 → Nat) a + S1x1024x128.size a ≤ S4x1024x128.size a)
    (u : Fin 1) (p : Fin 1024) (q : Fin 128) :
    (Rect.unit (s := S4x1024x128) ![o, 0, 0] S1x1024x128.size inb).emb (ix3 u p q) = ix3 (⟨o, ho⟩ : Fin 4) p q := by
  funext a
  apply Fin.ext
  rw [Rect.emb_apply]
  match a with
  | ⟨0, _⟩ => show o + 1 * u.val = o; omega
  | ⟨1, _⟩ => show 0 + 1 * p.val = p.val; omega
  | ⟨2, _⟩ => show 0 + 1 * q.val = q.val; omega

/-- THE BLOCK: what the four stores leave is `planes` of the loaded block. -/
theorem out_eq (x0 : Vec Ideal S4x1024x128 .f32) : out0_1 (F := Ideal) x0 = planes x0 := by
  funext y
  unfold out0_1
  rw [View.ld_unit_zero (S := S4x1024x128) hz]
  refine View.canon_apply_of_pieces (Val := Elt Ideal) (S := S4x1024x128) (e := .f32) (planes x0) _ ?_ y (cover0_1 _ _ _ _ y)
  intro pc hpc
  simp only [List.mem_cons, List.mem_nil_iff, or_false] at hpc
  rcases hpc with rfl | rfl | rfl | rfl
  · intro x
    obtain ⟨u, p, q, rfl⟩ : ∃ (u : Fin 1) (p : Fin 1024) (q : Fin 128), x = ix3 u p q := ⟨x 0, x 1, x 2, eq_ix3 x⟩
    show k0_pay9 x0 (ix3 u p q) = planes x0 (r0_4.emb (ix3 u p q))
    rw [emb_plane 3 (by decide), pay9_apply]; rfl
  · intro x
    obtain ⟨u, p, q, rfl⟩ : ∃ (u : Fin 1) (p : Fin 1024) (q : Fin 128), x = ix3 u p q := ⟨x 0, x 1, x 2, eq_ix3 x⟩
    show k0_pay8 x0 (ix3 u p q) = planes x0 (r0_3.emb (ix3 u p q))
    rw [emb_plane 2 (by decide), pay8_apply]; rfl
  · intro x
    obtain ⟨u, p, q, rfl⟩ : ∃ (u : Fin 1) (p : Fin 1024) (q : Fin 128), x = ix3 u p q := ⟨x 0, x 1, x 2, eq_ix3 x⟩
    show k0_pay7 x0 (ix3 u p q) = planes x0 (r0_2.emb (ix3 u p q))
    rw [emb_plane 1 (by decide), pay7_apply]; rfl
  · intro x
    obtain ⟨u, p, q, rfl⟩ : ∃ (u : Fin 1) (p : Fin 1024) (q : Fin 128), x = ix3 u p q := ⟨x 0, x 1, x 2, eq_ix3 x⟩
    show k0_pay6 x0 (ix3 u p q) = planes x0 (r0_1.emb (ix3 u p q))
    rw [emb_plane 0 (by decide), pay6_apply]; rfl

end Cert.KernelIdeal.KValue

end
-- ==== Proof.KernelValue.lean ====
/-
  The idealized kernel's result, as one function of its argument.

  The program transposes the argument (1048576 rows of 4 columns) to 4 long rows, regroups each long row into 8192
  lines of 128 lanes, runs the body over 8 blocks of 1024 lines (all four planes and all lanes in every block),
  regroups the result back into 4 long rows and transposes back. Here: the block at grid point `t` is lines
  `1024 t … 1024 t + 1023` of the staged array (`iblk_apply`); what point `t` writes back is the same lines of
  `planes` of the staged array (`flushed_eq`); line `r` lies in the block of point `r / 1024`, so the blocks cover
  the array (`cover`) and the array the region leaves is `planes` of the staged array (`final`); the host
  operations before and after the region are read as terms (`V_main_v1`, `tail_eq`); and element `(r, j)` of the
  result is element `(j, r / 128, r % 128)` of the region's array, computed from elements `(j', r / 128, r % 128)`
  of the staged array, which are elements `(r, j')` of the argument (`roundtrip`). No finiteness is used: every
  step is pointwise and keeps the body's own association of the products.
-/
import proofs.«150509_j23115513987349_2_alg».proof.Proof.KernelBlock
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps, decided over the grid: both windows sit at block `(0, t, 0)`. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The input block at point `t` is rows `1024 t … 1024 t + 1023` of every plane of the staged array. -/
theorem iblk_apply (c : Dev nD) (t : Fin cfg0.N) (j : Fin 4) (p : Fin 1024) (q : Fin 128) (r : Fin 8192)
    (hr : r.val = 1024 * t.val + p.val) :
    (iblk m c 0 t : Vec Ideal S4x1024x128 .f32) (ix3 j p q) = (V m c main_v1 : S4x8192x128.Idx → EReal) (ix3 j r q) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 4 + 1 * j.val = j.val; rw [e0]; omega
  | ⟨1, _⟩ => show win0_0.index t (1 : Fin 3) * 1024 + 1 * p.val = r.val; rw [e1, hr]; omega
  | ⟨2, _⟩ => show win0_0.index t (2 : Fin 3) * 128 + 1 * q.val = q.val; rw [e2]; omega

/-- The four products depend on the planes only through the four cosines at that row and lane. -/
theorem prods_congr {n n' : Nat} (X : (⟨3, ![4, n, 128]⟩ : Shape).Idx → EReal) (A : (⟨3, ![4, n', 128]⟩ : Shape).Idx → EReal)
    (p : Fin n) (r : Fin n') (q : Fin 128) (h : ∀ j : Fin 4, X (ix3 j p q) = A (ix3 j r q)) (j : Fin 4) :
    prods X p q j = prods A r q j := by
  have hc : ∀ j : Fin 4, cs X j p q = cs A j r q := fun j => by unfold cs; rw [h j]
  match j with
  | ⟨0, _⟩ => show cs X 1 p q * cs X 2 p q * cs X 3 p q = cs A 1 r q * cs A 2 r q * cs A 3 r q; rw [hc, hc, hc]
  | ⟨1, _⟩ => show cs X 0 p q * cs X 1 p q = cs A 0 r q * cs A 1 r q; rw [hc, hc]
  | ⟨2, _⟩ => show cs X 0 p q * cs X 1 p q * cs X 2 p q = cs A 0 r q * cs A 1 r q * cs A 2 r q; rw [hc, hc, hc]
  | ⟨3, _⟩ => show cs X 0 p q * cs X 1 p q * cs X 2 p q * cs X 3 p q = cs A 0 r q * cs A 1 r q * cs A 2 r q * cs A 3 r q; rw [hc, hc, hc, hc]

/-- `planes` of a block that is rows `1024 T …` of an array is the same rows of `planes` of the array. -/
theorem planes_block (A : S4x8192x128.Idx → EReal) (X : S4x1024x128.Idx → EReal) (T : Nat)
    (hX : ∀ (j : Fin 4) (p : Fin 1024) (q : Fin 128) (r : Fin 8192), r.val = 1024 * T + p.val → X (ix3 j p q) = A (ix3 j r q))
    (y : S4x1024x128.Idx) (i : S4x8192x128.Idx)
    (h0 : (i 0).val = (y 0).val) (h1 : (i 1).val = 1024 * T + (y 1).val) (h2 : (i 2).val = (y 2).val) :
    planes X y = planes A i := by
  obtain ⟨j, p, q, rfl⟩ : ∃ (j : Fin 4) (p : Fin 1024) (q : Fin 128), y = ix3 j p q := ⟨y 0, y 1, y 2, eq_ix3 y⟩
  obtain ⟨j', r, q', rfl⟩ : ∃ (j' : Fin 4) (r : Fin 8192) (q' : Fin 128), i = ix3 j' r q' := ⟨i 0, i 1, i 2, eq_ix3 i⟩
  obtain rfl : j' = j := Fin.ext h0
  obtain rfl : q' = q := Fin.ext h2
  rw [planes_apply, planes_apply]
  exact prods_congr X A p r q' (fun j => hX j p q' r h1) j'

/-- WHAT POINT `t` WRITES BACK is block `t` of `planes` of the staged array. -/
theorem flushed_eq (c : Dev nD) (t : Fin cfg0.N) :
    (dats m 0 c).flushed 1 t = ((cfg0.win 1).blk t).view.read (Elt Ideal) (planes (n := 8192) (V m c main_v1)) := by
  show (cfg0.win 1).cut (grid0.coords t) ((dats m 0 c).after 1 t) = _
  rw [after0_1, out_eq]
  obtain ⟨-, -, -, f0, f1, f2⟩ := idx_facts t
  funext y
  show planes (n := 1024) (iblk m c 0 t) y = planes (n := 8192) (V m c main_v1) (((cfg0.win 1).blk t).view.emb y)
  refine planes_block (V m c main_v1) (iblk m c 0 t) t.val (fun j p q r hr => iblk_apply m c t j p q r hr) y
    (((cfg0.win 1).blk t).view.emb y) ?_ ?_ ?_
  · show win0_1.index t (0 : Fin 3) * 4 + 1 * (y 0).val = (y 0).val; rw [f0]; omega
  · show win0_1.index t (1 : Fin 3) * 1024 + 1 * (y 1).val = 1024 * t.val + (y 1).val; rw [f1]; omega
  · show win0_1.index t (2 : Fin 3) * 128 + 1 * (y 2).val = (y 2).val; rw [f2]; omega

/-- An index of the array is in point `t`'s block iff each coordinate is in the block's range on its axis. -/
theorem mem_blk (t : Fin cfg0.N) (i : S4x8192x128.Idx) :
    i ∈ ((cfg0.win 1).blk t).view.set ↔ ∀ a : Fin 3, win0_1.index t a * S4x1024x128.size a ≤ (i a).val ∧ (i a).val < win0_1.index t a * S4x1024x128.size a + S4x1024x128.size a := by
  show i ∈ ((View.whole main_v2).slice (win0_1.rect t)).set ↔ _
  rw [View.set_slice_whole, Rect.mem_set_unit]
  exact Iff.rfl

/-- Every index of the array is in the block of the point its row falls in: row `r` belongs to point `r / 1024`. -/
theorem cover (i : S4x8192x128.Idx) :
    ∃ t : Fin cfg0.N, (cfg0.win 1).flush t = true ∧ i ∈ ((cfg0.win 1).blk t).view.set := by
  have h0 : (i 0).val < 4 := (i 0).isLt
  have h1 : (i 1).val < 8192 := (i 1).isLt
  have h2 : (i 2).val < 128 := (i 2).isLt
  have hN : cfg0.N = 8 := N_0
  obtain ⟨t, ht⟩ : ∃ t : Fin cfg0.N, t.val = (i 1).val / 1024 := ⟨⟨(i 1).val / 1024, by rw [hN]; omega⟩, rfl⟩
  obtain ⟨-, -, -, f0, f1, f2⟩ := idx_facts t
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; rw [f0]; omega
  | ⟨1, _⟩ => show win0_1.index t (1 : Fin 3) * 1024 ≤ (i 1).val ∧ (i 1).val < win0_1.index t (1 : Fin 3) * 1024 + 1024; rw [f1, ht]; omega
  | ⟨2, _⟩ => show win0_1.index t (2 : Fin 3) * 128 ≤ (i 2).val ∧ (i 2).val < win0_1.index t (2 : Fin 3) * 128 + 128; rw [f2]; omega

/-- THE ARRAY after the run: `planes` of the staged array. -/
theorem final (c : Dev nD) : (dats m 0 c).arrAt 1 cfg0.N = planes (n := 8192) (V m c main_v1) :=
  (dats m 0 c).arrAt_eq_of_cover 1 (planes (n := 8192) (V m c main_v1)) (fun t _ => flushed_eq m c t) cover

/-- The staged array is the argument transposed and regrouped: plane `j` holds column `j`, 128 rows to a line. -/
theorem V_main_v1 (c : Dev nD) :
    (V m c main_v1 : S4x8192x128.Idx → EReal)
      = shapeCast S4x8192x128 (transpose S4x1048576 [1, 0] (m ((c.tc : Thread nD τ).loc main_arg0) : S1048576x4.Idx → EReal)
          Facts₀.transposes_S1048576x4_S4x1048576_1_0) Facts₀.shapeCasts_S4x1048576_S4x8192x128 := by
  show StableHlo.after hostOps0 (fun b => m (c, b)) (Proc.devRef .tc main_v1) = _
  after_results
  rfl

/-- The result, from the array the region leaves: regrouped into four long rows and transposed back. -/
theorem tail_eq (c : Dev nD) :
    (Pipeline.afterTail₀ cfgs (dats m) 0 (V0 m) [hostOps1] c main_v4 : S1048576x4.Idx → EReal)
      = transpose S1048576x4 [1, 0] (shapeCast S4x1048576 ((dats m 0 c).arrAt 1 cfg0.N : S4x8192x128.Idx → EReal)
          Facts₀.shapeCasts_S4x8192x128_S4x1048576) Facts₀.transposes_S4x1048576_S1048576x4_1_0 := by
  unfold Pipeline.afterTail₀
  show StableHlo.after hostOps1 _ (Proc.devRef .tc main_v4) = _
  after_results
  rw [Pipeline.withArrays_arr spec0 launch0.win.arr_inj c _ _ 1]
  rfl

/-- THE ARITHMETIC OF THE LAYOUT. Element `(r, j)` of the result is element `(j, r / 128, r % 128)` of the array the region
    leaves, whose four cosines are taken at elements `(j', r / 128, r % 128)` of the staged array, which are elements
    `(r, j')` of the argument: transposing, regrouping, `planes`, regrouping back and transposing back is the
    specification. -/
theorem roundtrip (x : FVec Ideal Cert.Spec.SX .f32)
    (h1 : S1048576x4.Transposes [1, 0] S4x1048576) (h2 : S4x1048576.ShapeCasts S4x8192x128)
    (h3 : S4x8192x128.ShapeCasts S4x1048576) (h4 : S4x1048576.Transposes [1, 0] S1048576x4) :
    transpose S1048576x4 [1, 0] (shapeCast S4x1048576
        (planes (n := 8192) (shapeCast S4x8192x128 (transpose S4x1048576 [1, 0] x h1) h2)) h3) h4 = Cert.Spec.G x := by
  funext i
  obtain ⟨r, j, rfl⟩ : ∃ (r : Fin 1048576) (j : Fin 4), i = ix2 r j := ⟨i 0, i 1, eq_ix2 i⟩
  have hr : r.val < 1048576 := r.isLt
  have hj : j.val < 4 := j.isLt
  obtain ⟨R, hR⟩ : ∃ R : Fin 8192, R.val = r.val / 128 := ⟨⟨r.val / 128, by omega⟩, rfl⟩
  obtain ⟨Q, hQ⟩ : ∃ Q : Fin 128, Q.val = r.val % 128 := ⟨⟨r.val % 128, by omega⟩, rfl⟩
  refine (transpose_ix2_apply _ h4 r j).trans ?_
  refine (shapeCast_apply _ h3 (ix2 j r) (ix3 j R Q) ?_).trans ?_
  · rw [Shape.rowMajor_val_three, Shape.rowMajor_val_two]
    show (j.val * 8192 + R.val) * 128 + Q.val = j.val * 1048576 + r.val
    omega
  rw [planes_apply, Cert.Spec.G_apply]
  have hc : ∀ j' : Fin 4, cs (n := 8192) (shapeCast S4x8192x128 (transpose S4x1048576 [1, 0] x h1) h2) j' R Q = Cert.Spec.c x r j' := by
    intro j'
    have hj' : j'.val < 4 := j'.isLt
    unfold cs Cert.Spec.c
    refine congrArg (fun z => Ideal.cos (Cert.Spec.alpha * z)) ?_
    refine (shapeCast_apply _ h2 (ix3 j' R Q) (ix2 j' r) ?_).trans (transpose_ix2_apply x h1 j' r)
    rw [Shape.rowMajor_val_three, Shape.rowMajor_val_two]
    show j'.val * 1048576 + r.val = (j'.val * 8192 + R.val) * 128 + Q.val
    omega
  match j with
  | ⟨0, _⟩ =>
    show cs _ 1 R Q * cs _ 2 R Q * cs _ 3 R Q = Cert.Spec.c x r 1 * Cert.Spec.c x r 2 * Cert.Spec.c x r 3
    rw [hc, hc, hc]
  | ⟨1, _⟩ =>
    show cs _ 0 R Q * cs _ 1 R Q = Cert.Spec.c x r 0 * Cert.Spec.c x r 1
    rw [hc, hc]
  | ⟨2, _⟩ =>
    show cs _ 0 R Q * cs _ 1 R Q * cs _ 2 R Q = Cert.Spec.c x r 0 * Cert.Spec.c x r 1 * Cert.Spec.c x r 2
    rw [hc, hc, hc]
  | ⟨3, _⟩ =>
    show cs _ 0 R Q * cs _ 1 R Q * cs _ 2 R Q * cs _ 3 R Q = Cert.Spec.c x r 0 * Cert.Spec.c x r 1 * Cert.Spec.c x r 2 * Cert.Spec.c x r 3
    rw [hc, hc, hc, hc]

/-- The result buffer after the run is the specification of the argument as launched. -/
theorem result_eq (c : Dev nD) :
    (Pipeline.afterTail₀ cfgs (dats m) 0 (V0 m) [hostOps1] c main_v4 : S1048576x4.Idx → EReal)
      = Cert.Spec.G (m ((c.tc : Thread nD τ).loc main_arg0)) := by
  rw [tail_eq, final, V_main_v1]
  exact roundtrip _ _ _ _ _

/-- THE RUN, READ: every weakly fair execution of the idealized kernel's program ends with the result buffer at the
    specification of the argument and the argument as launched. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4) = Cert.Spec.G (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's @main as a list of its 74 host operations, in the two stretches its text is printed
  in, and its run: every weakly fair execution terminates with every buffer at the fold of the operations'
  results over the launch contents. What that fold holds at the result buffer is read in the sibling modules.
-/
import proofs.«150509_j23115513987349_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 60 operations: the constants, the half angles, their cosines and sines, and the amplitudes of the
    first three qubits and half of the fourth's step. -/
abbrev ops0 : List (HloOp τ sig (Elt F)) :=
  [ nullary main_c (fun i => lit0 (S16.rowMajor i)),
    nullary main_cst (fun i => FloatOps.ofBits .f32 (lit1 (S16x4.rowMajor i))),
    nullary main_cst_0 (constant S_ .f32 0x3FC8F5C3#32),
    unary main_cst_0 main_v0 (broadcastInDim S1048576x4 ![] bcast_S_S1048576x4 : (⟨S_, .f32⟩ : BufTy).Contents (Elt F) → (⟨S1048576x4, .f32⟩ : BufTy).Contents (Elt F)),
    binary main_v0 main_arg0 main_v1 (mulf : (⟨S1048576x4, .f32⟩ : BufTy).Contents (Elt F) → (⟨S1048576x4, .f32⟩ : BufTy).Contents (Elt F) → (⟨S1048576x4, .f32⟩ : BufTy).Contents (Elt F)),
    nullary main_cst_1 (constant S_ .f32 0x3F000000#32),
    unary main_cst_1 main_v2 (broadcastInDim S1048576x4 ![] bcast_S_S1048576x4 : (⟨S_, .f32⟩ : BufTy).Contents (Elt F) → (⟨S1048576x4, .f32⟩ : BufTy).Contents (Elt F)),
    binary main_v2 main_v1 main_v3 (mulf : (⟨S1048576x4, .f32⟩ : BufTy).Contents (Elt F) → (⟨S1048576x4, .f32⟩ : BufTy).Contents (Elt F) → (⟨S1048576x4, .f32⟩ : BufTy).Contents (Elt F)),
    unary main_v3 main_v4 (Host.cos : (⟨S1048576x4, .f32⟩ : BufTy).Contents (Elt F) → (⟨S1048576x4, .f32⟩ : BufTy).Contents (Elt F)),
    unary main_v3 main_v5 (Host.sin : (⟨S1048576x4, .f32⟩ : BufTy).Contents (Elt F) → (⟨S1048576x4, .f32⟩ : BufTy).Contents (Elt F)),
    nullary main_cst_2 (constant S_ .f32 0x3F800000#32),
    unary main_cst_2 main_v6 (broadcastInDim S1048576x1 ![] bcast_S_S1048576x1 : (⟨S_, .f32⟩ : BufTy).Contents (Elt F) → (⟨S1048576x1, .f32⟩ : BufTy).Contents (Elt F)),
    unary main_v4 main_v7 ((extractStridedSlice S1048576x1 ![0, 0] · slices_S1048576x4_S1048576x1_0_0) : (⟨S1048576x4, .f32⟩ : BufTy).Contents (Elt F) → (⟨S1048576x1, .f32⟩ : BufTy).Contents (Elt F)),
    reshape main_v7 main_v8 rfl shapeCasts_S1048576x1_S1048576,
    unary main_v5 main_v9 ((extractStridedSlice S1048576x1 ![0, 0] · slices_S1048576x4_S1048576x1_0_0) : (⟨S1048576x4, .f32⟩ : BufTy).Contents (Elt F) → (⟨S1048576x1, .f32⟩ : BufTy).Contents (Elt F)),
    reshape main_v9 main_v10 rfl shapeCasts_S1048576x1_S1048576,
    unary main_v8 main_v11 (broadcastInDim S1048576x1 ![0] bcast_S1048576_S1048576x1_0 : (⟨S1048576, .f32⟩ : BufTy).Contents (Elt F) → (⟨S1048576x1, .f32⟩ : BufTy).Contents (Elt F)),
    unary main_v10 main_v12 (broadcastInDim S1048576x1 ![0] bcast_S1048576_S1048576x1_0 : (⟨S1048576, .f32⟩ : BufTy).Contents (Elt F) → (⟨S1048576x1, .f32⟩ : BufTy).Contents (Elt F)),
    binary main_v11 main_v12 main_v13 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    unary main_v6 main_v14 (broadcastInDim S1048576x1x1 ![0, 1] bcast_S1048576x1_S1048576x1x1_0_1 : (⟨S1048576x1, .f32⟩ : BufTy).Contents (Elt F) → (⟨S1048576x1x1, .f32⟩ : BufTy).Contents (Elt F)),
    unary main_v13 main_v15 (broadcastInDim S1048576x1x2 ![0, 2] bcast_S1048576x2_S1048576x1x2_0_2 : (⟨S1048576x2, .f32⟩ : BufTy).Contents (Elt F) → (⟨S1048576x1x2, .f32⟩ : BufTy).Contents (Elt F)),
    unary main_v14 main_v16 (broadcastInDim S1048576x1x2 ![0, 1, 2] bcast_S1048576x1x1_S1048576x1x2_0_1_2 : (⟨S1048576x1x1, .f32⟩ : BufTy).Contents (Elt F) → (⟨S1048576x1x2, .f32⟩ : BufTy).Contents (Elt F)),
    binary main_v16 main_v15 main_v17 (mulf : (⟨S1048576x1x2, .f32⟩ : BufTy).Contents (Elt F) → (⟨S1048576x1x2, .f32⟩ : BufTy).Contents (Elt F) → (⟨S1048576x1x2, .f32⟩ : BufTy).Contents (Elt F)),
    reshape main_v17 main_v18 rfl shapeCasts_S1048576x1x2_S1048576x2,
    unary main_v4 main_v19 ((extractStridedSlice S1048576x1 ![0, 1] · slices_S1048576x4_S1048576x1_0_1) : (⟨S1048576x4, .f32⟩ : BufTy).Contents (Elt F) → (⟨S1048576x1, .f32⟩ : BufTy).Contents (Elt F)),
    reshape main_v19 main_v20 rfl shapeCasts_S1048576x1_S1048576,
    unary main_v5 main_v21 ((extractStridedSlice S1048576x1 ![0, 1] · slices_S1048576x4_S1048576x1_0_1) : (⟨S1048576x4, .f32⟩ : BufTy).Contents (Elt F) → (⟨S1048576x1, .f32⟩ : BufTy).Contents (Elt F)),
    reshape main_v21 main_v22 rfl shapeCasts_S1048576x1_S1048576,
    unary main_v20 main_v23 (broadcastInDim S1048576x1 ![0] bcast_S1048576_S1048576x1_0 : (⟨S1048576, .f32⟩ : BufTy).Contents (Elt F) → (⟨S1048576x1, .f32⟩ : BufTy).Contents (Elt F)),
    unary main_v22 main_v24 (broadcastInDim S1048576x1 ![0] bcast_S1048576_S1048576x1_0 : (⟨S1048576, .f32⟩ : BufTy).Contents (Elt F) → (⟨S1048576x1, .f32⟩ : BufTy).Contents (Elt F)),
    binary main_v23 main_v24 main_v25 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    unary main_v18 main_v26 (broadcastInDim S1048576x2x1 ![0, 1] bcast_S1048576x2_S1048576x2x1_0_1 : (⟨S1048576x2, .f32⟩ : BufTy).Contents (Elt F) → (⟨S1048576x2x1, .f32⟩ : BufTy).Contents (Elt F)),
    unary main_v25 main_v27 (broadcastInDim S1048576x1x2 ![0, 2] bcast_S1048576x2_S1048576x1x2_0_2 : (⟨S1048576x2, .f32⟩ : BufTy).Contents (Elt F) → (⟨S1048576x1x2, .f32⟩ : BufTy).Contents (Elt F)),
    unary main_v26 main_v28 (broadcastInDim S1048576x2x2 ![0, 1, 2] bcast_S1048576x2x1_S1048576x2x2_0_1_2 : (⟨S1048576x2x1, .f32⟩ : BufTy).Contents (Elt F) → (⟨S1048576x2x2, .f32⟩ : BufTy).Contents (Elt F)),
    unary main_v27 main_v29 (broadcastInDim S1048576x2x2 ![0, 1, 2] bcast_S1048576x1x2_S1048576x2x2_0_1_2 : (⟨S1048576x1x2, .f32⟩ : BufTy).Contents (Elt F) → (⟨S1048576x2x2, .f32⟩ : BufTy).Contents (Elt F)),
    binary main_v28 main_v29 main_v30 (mulf : (⟨S1048576x2x2, .f32⟩ : BufTy).Contents (Elt F) → (⟨S1048576x2x2, .f32⟩ : BufTy).Contents (Elt F) → (⟨S1048576x2x2, .f32⟩ : BufTy).Contents (Elt F)),
    reshape main_v30 main_v31 rfl shapeCasts_S1048576x2x2_S1048576x4,
    unary main_v4 main_v32 ((extractStridedSlice S1048576x1 ![0, 2] · slices_S1048576x4_S1048576x1_0_2) : (⟨S1048576x4, .f32⟩ : BufTy).Contents (Elt F) → (⟨S1048576x1, .f32⟩ : BufTy).Contents (Elt F)),
    reshape main_v32 main_v33 rfl shapeCasts_S1048576x1_S1048576,
    unary main_v5 main_v34 ((extractStridedSlice S1048576x1 ![0, 2] · slices_S1048576x4_S1048576x1_0_2) : (⟨S1048576x4, .f32⟩ : BufTy).Contents (Elt F) → (⟨S1048576x1, .f32⟩ : BufTy).Contents (Elt F)),
    reshape main_v34 main_v35 rfl shapeCasts_S1048576x1_S1048576,
    unary main_v33 main_v36 (broadcastInDim S1048576x1 ![0] bcast_S1048576_S1048576x1_0 : (⟨S1048576, .f32⟩ : BufTy).Contents (Elt F) → (⟨S1048576x1, .f32⟩ : BufTy).Contents (Elt F)),
    unary main_v35 main_v37 (broadcastInDim S1048576x1 ![0] bcast_S1048576_S1048576x1_0 : (⟨S1048576, .f32⟩ : BufTy).Contents (Elt F) → (⟨S1048576x1, .f32⟩ : BufTy).Contents (Elt F)),
    binary main_v36 main_v37 main_v38 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    unary main_v31 main_v39 (broadcastInDim S1048576x4x1 ![0, 1] bcast_S1048576x4_S1048576x4x1_0_1 : (⟨S1048576x4, .f32⟩ : BufTy).Contents (Elt F) → (⟨S1048576x4x1, .f32⟩ : BufTy).Contents (Elt F)),
    unary main_v38 main_v40 (broadcastInDim S1048576x1x2 ![0, 2] bcast_S1048576x2_S1048576x1x2_0_2 : (⟨S1048576x2, .f32⟩ : BufTy).Contents (Elt F) → (⟨S1048576x1x2, .f32⟩ : BufTy).Contents (Elt F)),
    unary main_v39 main_v41 (broadcastInDim S1048576x4x2 ![0, 1, 2] bcast_S1048576x4x1_S1048576x4x2_0_1_2 : (⟨S1048576x4x1, .f32⟩ : BufTy).Contents (Elt F) → (⟨S1048576x4x2, .f32⟩ : BufTy).Contents (Elt F)),
    unary main_v40 main_v42 (broadcastInDim S1048576x4x2 ![0, 1, 2] bcast_S1048576x1x2_S1048576x4x2_0_1_2 : (⟨S1048576x1x2, .f32⟩ : BufTy).Contents (Elt F) → (⟨S1048576x4x2, .f32⟩ : BufTy).Contents (Elt F)),
    binary main_v41 main_v42 main_v43 (mulf : (⟨S1048576x4x2, .f32⟩ : BufTy).Contents (Elt F) → (⟨S1048576x4x2, .f32⟩ : BufTy).Contents (Elt F) → (⟨S1048576x4x2, .f32⟩ : BufTy).Contents (Elt F)),
    reshape main_v43 main_v44 rfl shapeCasts_S1048576x4x2_S1048576x8,
    unary main_v4 main_v45 ((extractStridedSlice S1048576x1 ![0, 3] · slices_S1048576x4_S1048576x1_0_3) : (⟨S1048576x4, .f32⟩ : BufTy).Contents (Elt F) → (⟨S1048576x1, .f32⟩ : BufTy).Contents (Elt F)),
    reshape main_v45 main_v46 rfl shapeCasts_S1048576x1_S1048576,
    unary main_v5 main_v47 ((extractStridedSlice S1048576x1 ![0, 3] · slices_S1048576x4_S1048576x1_0_3) : (⟨S1048576x4, .f32⟩ : BufTy).Contents (Elt F) → (⟨S1048576x1, .f32⟩ : BufTy).Contents (Elt F)),
    reshape main_v47 main_v48 rfl shapeCasts_S1048576x1_S1048576,
    unary main_v46 main_v49 (broadcastInDim S1048576x1 ![0] bcast_S1048576_S1048576x1_0 : (⟨S1048576, .f32⟩ : BufTy).Contents (Elt F) → (⟨S1048576x1, .f32⟩ : BufTy).Contents (Elt F)),
    unary main_v48 main_v50 (broadcastInDim S1048576x1 ![0] bcast_S1048576_S1048576x1_0 : (⟨S1048576, .f32⟩ : BufTy).Contents (Elt F) → (⟨S1048576x1, .f32⟩ : BufTy).Contents (Elt F)),
    binary main_v49 main_v50 main_v51 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    unary main_v44 main_v52 (broadcastInDim S1048576x8x1 ![0, 1] bcast_S1048576x8_S1048576x8x1_0_1 : (⟨S1048576x8, .f32⟩ : BufTy).Contents (Elt F) → (⟨S1048576x8x1, .f32⟩ : BufTy).Contents (Elt F)),
    unary main_v51 main_v53 (broadcastInDim S1048576x1x2 ![0, 2] bcast_S1048576x2_S1048576x1x2_0_2 : (⟨S1048576x2, .f32⟩ : BufTy).Contents (Elt F) → (⟨S1048576x1x2, .f32⟩ : BufTy).Contents (Elt F)),
    unary main_v52 main_v54 (broadcastInDim S1048576x8x2 ![0, 1, 2] bcast_S1048576x8x1_S1048576x8x2_0_1_2 : (⟨S1048576x8x1, .f32⟩ : BufTy).Contents (Elt F) → (⟨S1048576x8x2, .f32⟩ : BufTy).Contents (Elt F)) ]

/-- The last 14 operations: the end of the fourth step, the permutation of the basis states, the squares and the
    product with the table of signs. -/
abbrev ops1 : List (HloOp τ sig (Elt F)) :=
  [ unary main_v53 main_v55 (broadcastInDim S1048576x8x2 ![0, 1, 2] bcast_S1048576x1x2_S1048576x8x2_0_1_2 : (⟨S1048576x1x2, .f32⟩ : BufTy).Contents (Elt F) → (⟨S1048576x8x2, .f32⟩ : BufTy).Contents (Elt F)),
    binary main_v54 main_v55 main_v56 (mulf : (⟨S1048576x8x2, .f32⟩ : BufTy).Contents (Elt F) → (⟨S1048576x8x2, .f32⟩ : BufTy).Contents (Elt F) → (⟨S1048576x8x2, .f32⟩ : BufTy).Contents (Elt F)),
    reshape main_v56 main_v57 rfl shapeCasts_S1048576x8x2_S1048576x16,
    nullary main_c_3 (constantI S_ 32 0#32),
    unary main_c_3 main_v58 (broadcastInDim S16 ![] bcast_S_S16 : (⟨S_, .i32⟩ : BufTy).Contents (Elt F) → (⟨S16, .i32⟩ : BufTy).Contents (Elt F)),
    binary main_c main_v58 main_v59 (cmpi .slt : (⟨S16, .i32⟩ : BufTy).Contents (Elt F) → (⟨S16, .i32⟩ : BufTy).Contents (Elt F) → (⟨S16, .i1⟩ : BufTy).Contents (Elt F)),
    nullary main_c_4 (constantI S_ 32 16#32),
    unary main_c_4 main_v60 (broadcastInDim S16 ![] bcast_S_S16 : (⟨S_, .i32⟩ : BufTy).Contents (Elt F) → (⟨S16, .i32⟩ : BufTy).Contents (Elt F)),
    binary main_c main_v60 main_v61 (addi : (⟨S16, .i32⟩ : BufTy).Contents (Elt F) → (⟨S16, .i32⟩ : BufTy).Contents (Elt F) → (⟨S16, .i32⟩ : BufTy).Contents (Elt F)),
    ternary main_v59 main_v61 main_c main_v62 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v62 main_v63 (broadcastInDim S16x1 ![0] bcast_S16_S16x1_0 : (⟨S16, .i32⟩ : BufTy).Contents (Elt F) → (⟨S16x1, .i32⟩ : BufTy).Contents (Elt F)),
    binary main_v57 main_v63 main_v64 ((fun x i => Host.gather gather_S1048576x16_S16x1_S1048576x16_0_1_n_n_1_1_10485761 x i) : (⟨S1048576x16, .f32⟩ : BufTy).Contents (Elt F) → (⟨S16x1, .i32⟩ : BufTy).Contents (Elt F) → (⟨S1048576x16, .f32⟩ : BufTy).Contents (Elt F)),
    binary main_v64 main_v64 main_v65 (mulf : (⟨S1048576x16, .f32⟩ : BufTy).Contents (Elt F) → (⟨S1048576x16, .f32⟩ : BufTy).Contents (Elt F) → (⟨S1048576x16, .f32⟩ : BufTy).Contents (Elt F)),
    binary main_v65 main_cst main_v66 ((fun l r => Host.dotGeneral dot_S1048576x16_S16x4_S1048576x4_1_0_0_1_n_n none l r) : (⟨S1048576x16, .f32⟩ : BufTy).Contents (Elt F) → (⟨S16x4, .f32⟩ : BufTy).Contents (Elt F) → (⟨S1048576x4, .f32⟩ : BufTy).Contents (Elt F)) ]

/-- All 74 operations, in order. -/
abbrev ops : List (HloOp τ sig (Elt F)) := ops0 ++ ops1

set_option maxRecDepth 8192 in
set_option maxHeartbeats 4000000 in
theorem main_part0_eq (c : Dev nD) : main_part0 (F := F) c = seq ops0 := rfl
set_option maxRecDepth 8192 in
theorem main_part1_eq (c : Dev nD) : main_part1 (F := F) c = seq ops1 := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., unary_bufs_sub .., unary_bufs_sub .., nullary_bufs_sub .., unary_bufs_sub .., unary_bufs_sub .., reshape_bufs_sub .., unary_bufs_sub .., reshape_bufs_sub .., unary_bufs_sub .., unary_bufs_sub .., binary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub ..⟩
set_option maxRecDepth 8192 in
theorem ops1_sub : (ops1 : List (HloOp τ sig (Elt F))).Forall fun op => op.bufs ⊆ tcRefs τ sig :=
  ⟨unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Every weakly fair execution of @main terminates, and every buffer ends at the fold of the 74 operations over
    the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefTerm.lean ====
/-
  The reference program's result as one term of its input array, stage by stage, and the fact that the fold of
  its 74 operations holds that term at the result buffer.

  With `h = 0.5 · (α · x)`, `C = cos h` and `S = sin h` entrywise, qubit `j`'s pair is the two-column array whose
  row `r` is `(C[r, j], S[r, j])`. The amplitudes start from the one-column array of ones and take up one qubit
  at a time: the array of width `w` times the pair, as an outer product per row, flattened to width `2 w`. The
  sixteen amplitudes of a row are then permuted by a fixed table, squared, and multiplied with the 16 × 4 table of
  signs.
-/
import proofs.«150509_j23115513987349_2_alg».proof.Proof.RefRun
import Idealize.ShloMosaic.PureOps.Ideal

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

/-- The half angles `0.5 · (α · x)`. -/
def half (x : FVec Ideal S1048576x4 .f32) : FVec Ideal S1048576x4 .f32 :=
  mulf (broadcastInDim S1048576x4 ![] bcast_S_S1048576x4 (constant S_ .f32 0x3F000000#32))
    (mulf (broadcastInDim S1048576x4 ![] bcast_S_S1048576x4 (constant S_ .f32 0x3FC8F5C3#32)) x)

/-- Their cosines and sines. -/
def cosA (x : FVec Ideal S1048576x4 .f32) : FVec Ideal S1048576x4 .f32 := Host.cos (half x)
def sinA (x : FVec Ideal S1048576x4 .f32) : FVec Ideal S1048576x4 .f32 := Host.sin (half x)

/-- One column of a four-column array, as a one-column array. -/
def col (o : Fin 2 → Nat) (h : S1048576x4.Slices o S1048576x1) (a : FVec Ideal S1048576x4 .f32) : FVec Ideal S1048576x1 .f32 :=
  broadcastInDim S1048576x1 ![0] bcast_S1048576_S1048576x1_0
    (shapeCast S1048576 (extractStridedSlice S1048576x1 o a h) shapeCasts_S1048576x1_S1048576)

/-- A qubit's pair: its cosine column beside its sine column. -/
def pair (o : Fin 2 → Nat) (h : S1048576x4.Slices o S1048576x1) (x : FVec Ideal S1048576x4 .f32) : FVec Ideal S1048576x2 .f32 :=
  concatenate S1048576x2 1 [⟨S1048576x1, col o h (cosA x)⟩, ⟨S1048576x1, col o h (sinA x)⟩] concatenates_S1048576x1_S1048576x1_S1048576x2_d1

/-- The one-column array of ones. -/
def ones : FVec Ideal S1048576x1 .f32 := broadcastInDim S1048576x1 ![] bcast_S_S1048576x1 (constant S_ .f32 0x3F800000#32)

/-- The amplitudes after qubit 0. -/
def amp1 (x : FVec Ideal S1048576x4 .f32) : FVec Ideal S1048576x2 .f32 :=
  shapeCast S1048576x2
    (mulf (broadcastInDim S1048576x1x2 ![0, 1, 2] bcast_S1048576x1x1_S1048576x1x2_0_1_2
        (broadcastInDim S1048576x1x1 ![0, 1] bcast_S1048576x1_S1048576x1x1_0_1 ones))
      (broadcastInDim S1048576x1x2 ![0, 2] bcast_S1048576x2_S1048576x1x2_0_2 (pair ![0, 0] slices_S1048576x4_S1048576x1_0_0 x)))
    shapeCasts_S1048576x1x2_S1048576x2

/-- The amplitudes after qubits 0 and 1. -/
def amp2 (x : FVec Ideal S1048576x4 .f32) : FVec Ideal S1048576x4 .f32 :=
  shapeCast S1048576x4
    (mulf (broadcastInDim S1048576x2x2 ![0, 1, 2] bcast_S1048576x2x1_S1048576x2x2_0_1_2
        (broadcastInDim S1048576x2x1 ![0, 1] bcast_S1048576x2_S1048576x2x1_0_1 (amp1 x)))
      (broadcastInDim S1048576x2x2 ![0, 1, 2] bcast_S1048576x1x2_S1048576x2x2_0_1_2
        (broadcastInDim S1048576x1x2 ![0, 2] bcast_S1048576x2_S1048576x1x2_0_2 (pair ![0, 1] slices_S1048576x4_S1048576x1_0_1 x))))
    shapeCasts_S1048576x2x2_S1048576x4

/-- The amplitudes after qubits 0, 1 and 2. -/
def amp3 (x : FVec Ideal S1048576x4 .f32) : FVec Ideal S1048576x8 .f32 :=
  shapeCast S1048576x8
    (mulf (broadcastInDim S1048576x4x2 ![0, 1, 2] bcast_S1048576x4x1_S1048576x4x2_0_1_2
        (broadcastInDim S1048576x4x1 ![0, 1] bcast_S1048576x4_S1048576x4x1_0_1 (amp2 x)))
      (broadcastInDim S1048576x4x2 ![0, 1, 2] bcast_S1048576x1x2_S1048576x4x2_0_1_2
        (broadcastInDim S1048576x1x2 ![0, 2] bcast_S1048576x2_S1048576x1x2_0_2 (pair ![0, 2] slices_S1048576x4_S1048576x1_0_2 x))))
    shapeCasts_S1048576x4x2_S1048576x8

/-- The sixteen amplitudes of the product state. -/
def amp4 (x : FVec Ideal S1048576x4 .f32) : FVec Ideal S1048576x16 .f32 :=
  shapeCast S1048576x16
    (mulf (broadcastInDim S1048576x8x2 ![0, 1, 2] bcast_S1048576x8x1_S1048576x8x2_0_1_2
        (broadcastInDim S1048576x8x1 ![0, 1] bcast_S1048576x8_S1048576x8x1_0_1 (amp3 x)))
      (broadcastInDim S1048576x8x2 ![0, 1, 2] bcast_S1048576x1x2_S1048576x8x2_0_1_2
        (broadcastInDim S1048576x1x2 ![0, 2] bcast_S1048576x2_S1048576x1x2_0_2 (pair ![0, 3] slices_S1048576x4_S1048576x1_0_3 x))))
    shapeCasts_S1048576x8x2_S1048576x16

/-- The permutation table, as printed. -/
def permTab : IVec S16 32 := fun i => lit0 (S16.rowMajor i)

/-- The start indices of the permuting gather: the table with negative entries wrapped, as one column. -/
def startIdx : IVec S16x1 32 :=
  broadcastInDim S16x1 ![0] bcast_S16_S16x1_0
    (select (cmpi .slt permTab (broadcastInDim S16 ![] bcast_S_S16 (constantI S_ 32 0#32)))
      (addi permTab (broadcastInDim S16 ![] bcast_S_S16 (constantI S_ 32 16#32))) permTab)

/-- The permuted amplitudes. -/
def state (x : FVec Ideal S1048576x4 .f32) : FVec Ideal S1048576x16 .f32 :=
  Host.gather gather_S1048576x16_S16x1_S1048576x16_0_1_n_n_1_1_10485761 (amp4 x) startIdx

/-- The table of signs, as printed. -/
def signTab : FVec Ideal S16x4 .f32 := fun i => FloatOps.ofBits .f32 (lit1 (S16x4.rowMajor i))

/-- The reference's result. -/
def out (x : FVec Ideal S1048576x4 .f32) : FVec Ideal S1048576x4 .f32 :=
  Host.dotGeneral dot_S1048576x16_S16x4_S1048576x4_1_0_0_1_n_n none (mulf (state x) (state x)) signTab

set_option maxRecDepth 16384 in
set_option maxHeartbeats 30000000 in
/-- The fold of the 74 operations holds `out` of the input at the result buffer. -/
theorem after_v66 (V : Valuation τ sig (Elt Ideal)) :
    after (ops (F := Ideal)) V (Proc.devRef .tc main_v66) = out (V (Proc.devRef .tc main_arg0)) := by
  simp only [ops, List.cons_append, List.nil_append]
  after_results_simp <;> rfl

set_option maxRecDepth 16384 in
set_option maxHeartbeats 30000000 in
/-- No operation writes the input buffer. -/
theorem after_arg0 (V : Valuation τ sig (Elt Ideal)) :
    after (ops (F := Ideal)) V (Proc.devRef .tc main_arg0) = V (Proc.devRef .tc main_arg0) := by
  simp only [ops, List.cons_append, List.nil_append]
  after_results_simp

end Cert.ReferenceIdeal.RefTerm

end
-- ==== Proof.LibKron.lean ====
/-
  Layout lemmas for a tensor-product state built one factor at a time on the host, generic in the extents.

  * a column of an `[N, M]` array taken as a slice `[N, 1]`, flattened to `[N]` and put back as a column, read at a row;
  * two columns set side by side as an `[N, 2]` array, read at either column;
  * the outer-product step: an `[N, w]` array `A` and an `[N, 2]` array `P`, each spread over `[N, w, 2]`, multiplied and
    flattened to `[N, 2 w]`, read at `(r, 2 p + q)` as `A (r, p) · P (r, q)`; and its first instance, `w = 1`, where
    `P` needs one spreading only;
  * a gather of whole columns of an `[N, C]` array at a column `[E, 1]` of start indices (offset axis 0, collapsed axis 1,
    start index map [1], index vector axis 1, slices `[N, 1]`), read at `(r, e)` as the operand at row `r` and the column
    given by the start index, read signed and clamped into `[0, C - 1]`.
-/
import Idealize.ShloMosaic.PureOps.Ideal
import Idealize.ShloMosaic.Lib.ValueIdx
import Idealize.ShloMosaic.Lib.ValueLayout
import Idealize.ShloMosaic.Lib.Pipeline.Value

noncomputable section

namespace Cert.LibKron

open Idealize.ShloMosaic Idealize.ShloMosaic.ValueIdx

section Layout
variable {α : Type}

/-- Column `j` of an `[N, M]` array, sliced out, flattened and put back as a column, holds at row `r` the array's
    entry `(r, j)`. -/
theorem col_apply {N M : ℕ} (o : Fin 2 → ℕ) (j : Fin M) (ho : o = ![0, j.val])
    (hs : (⟨2, ![N, M]⟩ : Shape).Slices o ⟨2, ![N, 1]⟩) (hc : (⟨2, ![N, 1]⟩ : Shape).ShapeCasts ⟨1, ![N]⟩)
    (hb : (⟨1, ![N]⟩ : Shape).BroadcastsInDim ⟨2, ![N, 1]⟩ ![0])
    (a : (⟨2, ![N, M]⟩ : Shape).Idx → α) (r : Fin N) (u : Fin 1) :
    broadcastInDim ⟨2, ![N, 1]⟩ ![0] hb (shapeCast ⟨1, ![N]⟩ (extractStridedSlice ⟨2, ![N, 1]⟩ o a hs) hc) (ix2 r u)
      = a (ix2 r j) := by
  subst ho
  refine (broadcastInDim_apply ![0] hb _ (ix2 r u) (ix1 r) fun ax => ?_).trans ?_
  · match ax with
    | ⟨0, _⟩ =>
      show r.val = if N = 1 then 0 else r.val
      split
      · have := r.isLt; omega
      · rfl
  refine (shapeCast_apply _ hc (ix1 r) (ix2 r (0 : Fin 1)) ?_).trans ?_
  · rw [Shape.rowMajor_val_two, Shape.rowMajor_val_one]
    show r.val * 1 + 0 = r.val
    omega
  refine extractStridedSlice_apply _ a hs (ix2 r (0 : Fin 1)) (ix2 r j) fun ax => ?_
  match ax with
  | ⟨0, _⟩ => show r.val = 0 + r.val; omega
  | ⟨1, _⟩ => show j.val = j.val + 0; omega

/-- Two columns side by side: column 0 is the first. -/
theorem pair_apply_zero {N : ℕ} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (0 : Fin 2)) = u (ix2 r (0 : Fin 1)) := by
  refine concatenate_pair_apply_left 1 u v h (ix2 r (0 : Fin 2)) rfl (ix2 r (0 : Fin 1)) fun b => ?_
  match b with
  | ⟨0, _⟩ => rfl
  | ⟨1, _⟩ => rfl

/-- Two columns side by side: column 1 is the second. -/
theorem pair_apply_one {N : ℕ} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (1 : Fin 2)) = v (ix2 r (0 : Fin 1)) := by
  refine concatenate_pair_apply_right 1 u v h (ix2 r (1 : Fin 2)) rfl rfl (ix2 r (0 : Fin 1)) (fun b hb => ?_) rfl
  match b with
  | ⟨0, _⟩ => rfl
  | ⟨1, _⟩ => exact absurd rfl hb

end Layout

/-- The outer-product step at `(r, 2 p + q)`. -/
theorem outer_step_apply {N w w2 : ℕ} (hw : w2 = 2 * w)
    (hA1 : (⟨2, ![N, w]⟩ : Shape).BroadcastsInDim ⟨3, ![N, w, 1]⟩ ![0, 1])
    (hA2 : (⟨3, ![N, w, 1]⟩ : Shape).BroadcastsInDim ⟨3, ![N, w, 2]⟩ ![0, 1, 2])
    (hP1 : (⟨2, ![N, 2]⟩ : Shape).BroadcastsInDim ⟨3, ![N, 1, 2]⟩ ![0, 2])
    (hP2 : (⟨3, ![N, 1, 2]⟩ : Shape).BroadcastsInDim ⟨3, ![N, w, 2]⟩ ![0, 1, 2])
    (hC : (⟨3, ![N, w, 2]⟩ : Shape).ShapeCasts ⟨2, ![N, w2]⟩)
    (A : FVec Ideal ⟨2, ![N, w]⟩ .f32) (P : FVec Ideal ⟨2, ![N, 2]⟩ .f32) (r : Fin N) (p : Fin w) (q : Fin 2)
    (c : Fin w2) (hc : c.val = 2 * p.val + q.val) :
    shapeCast ⟨2, ![N, w2]⟩
        (mulf (broadcastInDim ⟨3, ![N, w, 2]⟩ ![0, 1, 2] hA2 (broadcastInDim ⟨3, ![N, w, 1]⟩ ![0, 1] hA1 A))
          (broadcastInDim ⟨3, ![N, w, 2]⟩ ![0, 1, 2] hP2 (broadcastInDim ⟨3, ![N, 1, 2]⟩ ![0, 2] hP1 P))) hC (ix2 r c)
      = A (ix2 r p) * P (ix2 r q) := by
  subst hw
  refine (shapeCast_apply _ hC (ix2 r c) (ix3 r p q) ?_).trans ?_
  · rw [Shape.rowMajor_val_two, Shape.rowMajor_val_three]
    show (r.val * w + p.val) * 2 + q.val = r.val * (2 * w) + c.val
    rw [hc]; ring
  rw [mulf_apply]
  congr 1
  · refine (broadcastInDim_apply ![0, 1, 2] hA2 _ (ix3 r p q) (ix3 r p (0 : Fin 1)) fun ax => ?_).trans ?_
    · match ax with
      | ⟨0, _⟩ =>
        show r.val = if N = 1 then 0 else r.val
        split
        · have := r.isLt; omega
        · rfl
      | ⟨1, _⟩ =>
        show p.val = if w = 1 then 0 else p.val
        split
        · have := p.isLt; omega
        · rfl
      | ⟨2, _⟩ => rfl
    refine broadcastInDim_apply ![0, 1] hA1 A (ix3 r p (0 : Fin 1)) (ix2 r p) fun ax => ?_
    match ax with
    | ⟨0, _⟩ =>
      show r.val = if N = 1 then 0 else r.val
      split
      · have := r.isLt; omega
      · rfl
    | ⟨1, _⟩ =>
      show p.val = if w = 1 then 0 else p.val
      split
      · have := p.isLt; omega
      · rfl
  · refine (broadcastInDim_apply ![0, 1, 2] hP2 _ (ix3 r p q) (ix3 r (0 : Fin 1) q) fun ax => ?_).trans ?_
    · match ax with
      | ⟨0, _⟩ =>
        show r.val = if N = 1 then 0 else r.val
        split
        · have := r.isLt; omega
        · rfl
      | ⟨1, _⟩ => rfl
      | ⟨2, _⟩ => rfl
    refine broadcastInDim_apply ![0, 2] hP1 P (ix3 r (0 : Fin 1) q) (ix2 r q) fun ax => ?_
    match ax with
    | ⟨0, _⟩ =>
      show r.val = if N = 1 then 0 else r.val
      split
      · have := r.isLt; omega
      · rfl
    | ⟨1, _⟩ => rfl

/-- The first outer-product step, from a one-column array: at `(r, q)` it is `A (r, 0) · P (r, q)`. -/
theorem outer_first_apply {N : ℕ}
    (hA1 : (⟨2, ![N, 1]⟩ : Shape).BroadcastsInDim ⟨3, ![N, 1, 1]⟩ ![0, 1])
    (hA2 : (⟨3, ![N, 1, 1]⟩ : Shape).BroadcastsInDim ⟨3, ![N, 1, 2]⟩ ![0, 1, 2])
    (hP1 : (⟨2, ![N, 2]⟩ : Shape).BroadcastsInDim ⟨3, ![N, 1, 2]⟩ ![0, 2])
    (hC : (⟨3, ![N, 1, 2]⟩ : Shape).ShapeCasts ⟨2, ![N, 2]⟩)
    (A : FVec Ideal ⟨2, ![N, 1]⟩ .f32) (P : FVec Ideal ⟨2, ![N, 2]⟩ .f32) (r : Fin N) (q : Fin 2) :
    shapeCast ⟨2, ![N, 2]⟩
        (mulf (broadcastInDim ⟨3, ![N, 1, 2]⟩ ![0, 1, 2] hA2 (broadcastInDim ⟨3, ![N, 1, 1]⟩ ![0, 1] hA1 A))
          (broadcastInDim ⟨3, ![N, 1, 2]⟩ ![0, 2] hP1 P)) hC (ix2 r q)
      = A (ix2 r (0 : Fin 1)) * P (ix2 r q) := by
  refine (shapeCast_apply _ hC (ix2 r q) (ix3 r (0 : Fin 1) q) ?_).trans ?_
  · rw [Shape.rowMajor_val_two, Shape.rowMajor_val_three]
    show (r.val * 1 + 0) * 2 + q.val = r.val * 2 + q.val
    omega
  rw [mulf_apply]
  congr 1
  · refine (broadcastInDim_apply ![0, 1, 2] hA2 _ (ix3 r (0 : Fin 1) q) (ix3 r (0 : Fin 1) (0 : Fin 1)) fun ax => ?_).trans ?_
    · match ax with
      | ⟨0, _⟩ =>
        show r.val = if N = 1 then 0 else r.val
        split
        · have := r.isLt; omega
        · rfl
      | ⟨1, _⟩ => rfl
      | ⟨2, _⟩ => rfl
    refine broadcastInDim_apply ![0, 1] hA1 A (ix3 r (0 : Fin 1) (0 : Fin 1)) (ix2 r (0 : Fin 1)) fun ax => ?_
    match ax with
    | ⟨0, _⟩ =>
      show r.val = if N = 1 then 0 else r.val
      split
      · have := r.isLt; omega
      · rfl
    | ⟨1, _⟩ => rfl
  · refine broadcastInDim_apply ![0, 2] hP1 P (ix3 r (0 : Fin 1) q) (ix2 r q) fun ax => ?_
    match ax with
    | ⟨0, _⟩ =>
      show r.val = if N = 1 then 0 else r.val
      split
      · have := r.isLt; omega
      · rfl
    | ⟨1, _⟩ => rfl

section Gather
variable {α : Type}

/-- The dimension numbers of a gather of whole columns: operand `[N, C]`, start indices `[E, 1]`, result `[N, E]`. -/
abbrev colDims (N C E : ℕ)
    (wf : GatherDims.WF ⟨2, ![N, C]⟩ ⟨2, ![E, 1]⟩ ⟨2, ![N, E]⟩ [0] [1] [] [1] [] 1 ![N, 1]) :
    GatherDims ⟨2, ![N, C]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- The gather of columns read at `(r, e)`: row `r` of the column the start index `idx (e, 0)` names, read signed
    and clamped into `[0, C - 1]`. -/
theorem gather_cols_apply {N C E w : ℕ} (hC : 0 < C)
    (wf : GatherDims.WF ⟨2, ![N, C]⟩ ⟨2, ![E, 1]⟩ ⟨2, ![N, E]⟩ [0] [1] [] [1] [] 1 ![N, 1])
    (x : (⟨2, ![N, C]⟩ : Shape).Idx → α) (idx : IVec ⟨2, ![E, 1]⟩ w) (r : Fin N) (e : Fin E) :
    Host.gather (colDims N C E wf) x idx (ix2 r e)
      = x (ix2 r ⟨min (idx (ix2 e (0 : Fin 1))).toInt.toNat (C - 1), by omega⟩) := by
  unfold Host.gather
  congr 1
  funext a
  refine Fin.ext ?_
  match a with
  | ⟨0, _⟩ =>
    show (colDims N C E wf).start (ix2 r e) idx 0 + (colDims N C E wf).batchCoord (ix2 r e) 0
      + (colDims N C E wf).offCoord (ix2 r e) 0 = r.val
    rw [GatherDims.batchCoord_eq_zero _ _ _ List.not_mem_nil]
    unfold GatherDims.start
    rw [dif_neg (show (0 : Fin 2) ∉ (colDims N C E wf).startIndexMap from
      fun h => Nat.zero_ne_one (congrArg Fin.val (List.mem_singleton.mp h)))]
    simp only [Nat.add_zero, Nat.zero_add]
    rfl
  | ⟨1, _⟩ =>
    show (colDims N C E wf).start (ix2 r e) idx 1 + (colDims N C E wf).batchCoord (ix2 r e) 1
      + (colDims N C E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C E wf).startIndexMap from List.mem_singleton.mpr rfl)]
    have hsi : (colDims N C E wf).siIdx (ix2 r e) ⟨List.idxOf (1 : Fin 2) (colDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Gather

end Cert.LibKron

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Trig.lean ====
/-
  The expectation values of a product state after a ring of controlled negations, over the real numbers.

  Four qubits, qubit `j` in the state `c j |0⟩ + s j |1⟩`. The amplitude of the basis state `b = (b₀ b₁ b₂ b₃)` (qubit 0
  the most significant bit) is `f 0 b₀ · f 1 b₁ · f 2 b₂ · f 3 b₃` with `f j 0 = c j`, `f j 1 = s j`. The ring of
  controlled negations permutes the basis states by a fixed table `permF`; the probability of outcome `k` is the square
  of the amplitude at `permF k`, and the expectation of the sign `(-1)^(bit i of k)` is the signed sum of the sixteen
  probabilities. Because the permutation is linear over the field of two elements, bit `i` of `k` is a sum of bits of
  `permF k`, so the signed sum factors: over the qubits in the sum a factor `c j ² - s j ²`, over the others
  `c j ² + s j ²`. With `c j ² + s j ² = 1` only the first kind is left.
-/
import Idealize.ShloMosaic.PureOps.Ideal
import Mathlib.Tactic

noncomputable section

namespace Cert.Trig

/-- The four bits of a basis state, qubit 0 first. -/
def q0 (b : Fin 16) : Fin 2 := ⟨b.val / 8, by omega⟩
def q1 (b : Fin 16) : Fin 2 := ⟨b.val / 4 % 2, by omega⟩
def q2 (b : Fin 16) : Fin 2 := ⟨b.val / 2 % 2, by omega⟩
def q3 (b : Fin 16) : Fin 2 := ⟨b.val % 2, by omega⟩

/-- The permutation of the basis states. -/
def permF : Fin 16 → Fin 16 := ![0, 13, 3, 14, 6, 11, 5, 8, 12, 1, 15, 2, 10, 7, 9, 4]

/-- A qubit's amplitude at a bit. -/
def f (c s : Fin 4 → ℝ) (j : Fin 4) (q : Fin 2) : ℝ := if q = 0 then c j else s j

/-- The amplitude of a basis state, in the order the factors are taken up. -/
def amp (c s : Fin 4 → ℝ) (b : Fin 16) : ℝ :=
  1 * f c s 0 (q0 b) * f c s 1 (q1 b) * f c s 2 (q2 b) * f c s 3 (q3 b)

/-- Bit `i` of outcome `k`. -/
def bit (k : Fin 16) : Fin 4 → Fin 2
  | 0 => q0 k
  | 1 => q1 k
  | 2 => q2 k
  | 3 => q3 k

/-- The sign of outcome `k` for qubit `i`. -/
def sgn (k : Fin 16) (i : Fin 4) : ℝ := if bit k i = 0 then 1 else -1

/-- The products the expectations come to, from the four factors `d j`. -/
def rowR (d : Fin 4 → ℝ) : Fin 4 → ℝ
  | 0 => d 1 * d 2 * d 3
  | 1 => d 0 * d 1
  | 2 => d 0 * d 1 * d 2
  | 3 => d 0 * d 1 * d 2 * d 3

theorem sum16 {M : Type*} [AddCommMonoid M] (g : Fin 16 → M) :
    ∑ k : Fin 16, g k = g 0 + g 1 + g 2 + g 3 + g 4 + g 5 + g 6 + g 7 + g 8 + g 9 + g 10 + g 11 + g 12 + g 13 + g 14 + g 15 := by
  simp only [Fin.sum_univ_succ, Fin.sum_univ_zero, add_zero]
  simp only [add_assoc]
  rfl

/-- The signed sum of the sixteen probabilities is the product of `c j ² - s j ²` over the qubits the outcome bit depends on. -/
theorem expect (c s : Fin 4 → ℝ) (h : ∀ j, c j ^ 2 + s j ^ 2 = 1) (i : Fin 4) :
    ∑ k : Fin 16, amp c s (permF k) * amp c s (permF k) * sgn k i = rowR (fun j => c j ^ 2 - s j ^ 2) i := by
  have h0 := h 0
  have h1 := h 1
  have h2 := h 2
  have h3 := h 3
  rw [sum16]
  fin_cases i
  · simp [amp, f, permF, sgn, bit, rowR, q0, q1, q2, q3]
    linear_combination ((c 1 ^ 2 - s 1 ^ 2) * (c 2 ^ 2 - s 2 ^ 2) * (c 3 ^ 2 - s 3 ^ 2)) * h0
  · simp [amp, f, permF, sgn, bit, rowR, q0, q1, q2, q3]
    linear_combination ((c 0 ^ 2 - s 0 ^ 2) * (c 1 ^ 2 - s 1 ^ 2) * (c 3 ^ 2 + s 3 ^ 2)) * h2 + ((c 0 ^ 2 - s 0 ^ 2) * (c 1 ^ 2 - s 1 ^ 2)) * h3
  · simp [amp, f, permF, sgn, bit, rowR, q0, q1, q2, q3]
    linear_combination ((c 0 ^ 2 - s 0 ^ 2) * (c 1 ^ 2 - s 1 ^ 2) * (c 2 ^ 2 - s 2 ^ 2)) * h3
  · simp [amp, f, permF, sgn, bit, rowR, q0, q1, q2, q3]
    ring

end Cert.Trig

end
-- ==== Proof.RefRead.lean ====
/-
  The reference's result read at an index.

  Entry `(r, i)` of the result is the sum over the sixteen outcomes `k` of the squared permuted amplitude of row `r` times
  the sign of `k` for qubit `i`; the amplitude of row `r` at the basis state with bits `b₀ b₁ b₂ b₃` is the product, taken up
  in order from 1, of the qubits' entries (cosine of the half angle at bit 0, sine at bit 1).
-/
import proofs.«150509_j23115513987349_2_alg».proof.Proof.RefTerm
import proofs.«150509_j23115513987349_2_alg».proof.Proof.LibKron
import proofs.«150509_j23115513987349_2_alg».proof.Proof.LibColumn
import proofs.«150509_j23115513987349_2_alg».proof.Proof.LibDot
import proofs.«150509_j23115513987349_2_alg».proof.Proof.Trig
import Idealize.ShloMosaic.PureOps.Ideal.Laws

noncomputable section

namespace Cert.ReferenceIdeal.RefRead

open Cert.ReferenceIdeal Cert.ReferenceIdeal.Gen Cert.ReferenceIdeal.RefTerm Idealize.ShloMosaic Idealize.ShloMosaic.ValueIdx
open Cert.LibKron Cert.Trig

/-- The half angle at `(r, j)`. -/
theorem half_apply (x : FVec Ideal S1048576x4 .f32) (r : Fin 1048576) (j : Fin 4) :
    half x (ix2 r j) = Ideal.ofBits .f32 0x3F000000#32 * (Ideal.ofBits .f32 0x3FC8F5C3#32 * x (ix2 r j)) := rfl

theorem cosA_apply (x : FVec Ideal S1048576x4 .f32) (r : Fin 1048576) (j : Fin 4) :
    cosA x (ix2 r j) = Ideal.cos (half x (ix2 r j)) := rfl

theorem sinA_apply (x : FVec Ideal S1048576x4 .f32) (r : Fin 1048576) (j : Fin 4) :
    sinA x (ix2 r j) = Ideal.sin (half x (ix2 r j)) := rfl

/-- A qubit's pair at bit 0 is its cosine. -/
theorem pair_zero (o : Fin 2 → ℕ) (j : Fin 4) (ho : o = ![0, j.val]) (h : S1048576x4.Slices o S1048576x1)
    (x : FVec Ideal S1048576x4 .f32) (r : Fin 1048576) :
    pair o h x (ix2 r (0 : Fin 2)) = cosA x (ix2 r j) := by
  unfold pair col
  refine (pair_apply_zero _ _ concatenates_S1048576x1_S1048576x1_S1048576x2_d1 r).trans ?_
  exact col_apply o j ho h shapeCasts_S1048576x1_S1048576 bcast_S1048576_S1048576x1_0 (cosA x) r 0

/-- A qubit's pair at bit 1 is its sine. -/
theorem pair_one (o : Fin 2 → ℕ) (j : Fin 4) (ho : o = ![0, j.val]) (h : S1048576x4.Slices o S1048576x1)
    (x : FVec Ideal S1048576x4 .f32) (r : Fin 1048576) :
    pair o h x (ix2 r (1 : Fin 2)) = sinA x (ix2 r j) := by
  unfold pair col
  refine (pair_apply_one _ _ concatenates_S1048576x1_S1048576x1_S1048576x2_d1 r).trans ?_
  exact col_apply o j ho h shapeCasts_S1048576x1_S1048576 bcast_S1048576_S1048576x1_0 (sinA x) r 0

/-- Qubit `j`'s entry of row `r` at a bit. -/
def ent (x : FVec Ideal S1048576x4 .f32) (r : Fin 1048576) (j : Fin 4) (q : Fin 2) : EReal :=
  if q = 0 then cosA x (ix2 r j) else sinA x (ix2 r j)

theorem pair_apply (o : Fin 2 → ℕ) (j : Fin 4) (ho : o = ![0, j.val]) (h : S1048576x4.Slices o S1048576x1)
    (x : FVec Ideal S1048576x4 .f32) (r : Fin 1048576) (q : Fin 2) :
    pair o h x (ix2 r q) = ent x r j q := by
  unfold ent
  match q with
  | ⟨0, _⟩ => exact pair_zero o j ho h x r
  | ⟨1, _⟩ => exact pair_one o j ho h x r

/-- The amplitudes after qubit 0. -/
theorem amp1_apply (x : FVec Ideal S1048576x4 .f32) (r : Fin 1048576) (q : Fin 2) :
    amp1 x (ix2 r q) = Ideal.ofBits .f32 0x3F800000#32 * ent x r 0 q := by
  unfold amp1
  refine (outer_first_apply _ _ _ _ ones _ r q).trans ?_
  rw [pair_apply ![0, 0] 0 rfl]
  rfl

/-- The amplitudes after qubits 0 and 1. -/
theorem amp2_apply (x : FVec Ideal S1048576x4 .f32) (r : Fin 1048576) (p : Fin 2) (q : Fin 2) (c : Fin 4)
    (hc : c.val = 2 * p.val + q.val) :
    amp2 x (ix2 r c) = amp1 x (ix2 r p) * ent x r 1 q := by
  unfold amp2
  refine (outer_step_apply rfl _ _ _ _ _ (amp1 x) _ r p q c hc).trans ?_
  rw [pair_apply ![0, 1] 1 rfl]

/-- The amplitudes after qubits 0, 1 and 2. -/
theorem amp3_apply (x : FVec Ideal S1048576x4 .f32) (r : Fin 1048576) (p : Fin 4) (q : Fin 2) (c : Fin 8)
    (hc : c.val = 2 * p.val + q.val) :
    amp3 x (ix2 r c) = amp2 x (ix2 r p) * ent x r 2 q := by
  unfold amp3
  refine (outer_step_apply rfl _ _ _ _ _ (amp2 x) _ r p q c hc).trans ?_
  rw [pair_apply ![0, 2] 2 rfl]

/-- The sixteen amplitudes. -/
theorem amp4_apply (x : FVec Ideal S1048576x4 .f32) (r : Fin 1048576) (p : Fin 8) (q : Fin 2) (c : Fin 16)
    (hc : c.val = 2 * p.val + q.val) :
    amp4 x (ix2 r c) = amp3 x (ix2 r p) * ent x r 3 q := by
  unfold amp4
  refine (outer_step_apply rfl _ _ _ _ _ (amp3 x) _ r p q c hc).trans ?_
  rw [pair_apply ![0, 3] 3 rfl]

/-- The amplitude of row `r` at the basis state `b`, from its four bits. -/
theorem amp4_bits (x : FVec Ideal S1048576x4 .f32) (r : Fin 1048576) (b : Fin 16) :
    amp4 x (ix2 r b)
      = Ideal.ofBits .f32 0x3F800000#32 * ent x r 0 ⟨b.val / 8, by omega⟩ * ent x r 1 ⟨b.val / 4 % 2, by omega⟩
          * ent x r 2 ⟨b.val / 2 % 2, by omega⟩ * ent x r 3 ⟨b.val % 2, by omega⟩ := by
  rw [amp4_apply x r ⟨b.val / 2, by omega⟩ ⟨b.val % 2, by omega⟩ b (by show b.val = 2 * (b.val / 2) + b.val % 2; omega),
    amp3_apply x r ⟨b.val / 4, by omega⟩ ⟨b.val / 2 % 2, by omega⟩ ⟨b.val / 2, by omega⟩
      (by show b.val / 2 = 2 * (b.val / 4) + b.val / 2 % 2; omega),
    amp2_apply x r ⟨b.val / 8, by omega⟩ ⟨b.val / 4 % 2, by omega⟩ ⟨b.val / 4, by omega⟩
      (by show b.val / 4 = 2 * (b.val / 8) + b.val / 4 % 2; omega),
    amp1_apply]

/-- The start index of outcome `k`, read signed and clamped, is the table's entry. -/
theorem start_eq (k : Fin 16) :
    min (Scalar.select (IntOp.cmpi .slt (lit0 k) 0#32) (IntOp.addi (lit0 k) 16#32) (lit0 k)).toInt.toNat (16 - 1) = (permF k).val := by
  revert k
  decide

theorem rowMajor16 (k : Fin 16) : S16.rowMajor (ix1 k) = k :=
  Fin.ext (Shape.rowMajor_val_one (ix1 k))

theorem startIdx_apply (k : Fin 16) :
    startIdx (ix2 k (0 : Fin 1)) = Scalar.select (IntOp.cmpi .slt (lit0 k) 0#32) (IntOp.addi (lit0 k) 16#32) (lit0 k) := by
  unfold startIdx
  refine (Cert.LibColumn.broadcastInDim_a_a1_apply _ bcast_S16_S16x1_0 k 0).trans ?_
  show Scalar.select (IntOp.cmpi .slt (lit0 (S16.rowMajor (ix1 k))) 0#32) (IntOp.addi (lit0 (S16.rowMajor (ix1 k))) 16#32)
    (lit0 (S16.rowMajor (ix1 k))) = _
  rw [rowMajor16]

/-- The permuted amplitudes. -/
theorem state_apply (x : FVec Ideal S1048576x4 .f32) (r : Fin 1048576) (k : Fin 16) :
    state x (ix2 r k) = amp4 x (ix2 r (permF k)) := by
  unfold state
  refine (gather_cols_apply (N := 1048576) (C := 16) (E := 16) (by decide)
    gather_S1048576x16_S16x1_S1048576x16_0_1_n_n_1_1_10485761_wf (amp4 x) startIdx r k).trans ?_
  refine congrArg (amp4 x) (congrArg (ix2 r) (Fin.ext ?_))
  show min (startIdx (ix2 k (0 : Fin 1))).toInt.toNat (16 - 1) = (permF k).val
  rw [startIdx_apply]
  exact start_eq k

/-- The table of signs at `(k, i)`. -/
theorem signTab_apply (k : Fin 16) (i : Fin 4) :
    signTab (ix2 k i) = Ideal.ofBits .f32 (lit1 ⟨4 * k.val + i.val, by omega⟩) := by
  unfold signTab
  show Ideal.ofBits .f32 (lit1 (S16x4.rowMajor (ix2 k i))) = _
  refine congrArg (fun z => Ideal.ofBits .f32 (lit1 z)) (Fin.ext ?_)
  rw [Shape.rowMajor_val_two]
  show k.val * 4 + i.val = 4 * k.val + i.val
  omega

/-- The result at `(r, i)`: the signed sum of the sixteen squared permuted amplitudes. -/
theorem out_apply (x : FVec Ideal S1048576x4 .f32) (r : Fin 1048576) (i : Fin 4) :
    out x (ix2 r i) = ∑ k : Fin 16, amp4 x (ix2 r (permF k)) * amp4 x (ix2 r (permF k)) * signTab (ix2 k i) := by
  unfold out
  simp only [Host.dotGeneral]
  rw [Ideal.dotGeneral_apply]
  refine (PlainDot.sum_eq dot_S1048576x16_S16x4_S1048576x4_1_0_0_1_n_n rfl rfl rfl rfl rfl rfl _ _ r i).trans ?_
  refine Finset.sum_congr rfl fun k _ => ?_
  rw [mulf_apply, state_apply]

end Cert.ReferenceIdeal.RefRead

end
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibRealOps.lean ====
/-
  More operations under which the real numbers among the extended reals are closed: negation, the exponential, the
  cosine; the pattern of `2.0`; and the inclusion of the real numbers commuting with finite sums (what lets a law of
  finite real sums be carried to extended reals that are real numbers).
-/
import Idealize.ShloMosaic.PureOps.Ideal
import proofs.«150509_j23115513987349_2_alg».proof.Proof.LibReal

noncomputable section

namespace Cert.LibRealOps

open Idealize.ShloMosaic Cert.LibReal

/-- The pattern of `2.0` denotes the real number 2. -/
theorem two_eq : Ideal.ofBits .f32 0x40000000#32 = ((2 : ℝ) : EReal) := by
  simp [Ideal.ofBits, Ideal.ieee, -EReal.coe_mul]; norm_num

theorem isR_two : IsR (Ideal.ofBits .f32 0x40000000#32) := ⟨2, two_eq⟩

/-- The negative of a real number is a real number. -/
theorem isR_neg {a : EReal} (ha : IsR a) : IsR (-a) := by
  obtain ⟨r, rfl⟩ := ha; exact ⟨-r, (EReal.coe_neg r).symm⟩

/-- The exponential of a real number is a real number. -/
theorem isR_exp {a : EReal} (ha : IsR a) : IsR (Ideal.exp a) := by
  obtain ⟨r, rfl⟩ := ha; exact ⟨Real.exp r, rfl⟩

/-- The cosine of a real number is a real number. -/
theorem isR_cos {a : EReal} (ha : IsR a) : IsR (Ideal.cos a) := by
  obtain ⟨r, rfl⟩ := ha; exact ⟨Real.cos r, rfl⟩

/-- The inclusion of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibRealOps

end
-- ==== Proof.Bridge.lean ====
/-
  The reference's result is the specification, on inputs whose entries are real numbers.

  For a row `r` write `t j = α · x[r, j]` and `h j = t j / 2`. The reference's entry `(r, i)` is the signed sum of the
  sixteen squared permuted amplitudes with `c j = cos (h j)`, `s j = sin (h j)`, which over the reals is the product
  over the qubits that outcome bit `i` depends on of `c j ² - s j ² = cos (2 h j) = cos (t j)`: the specification's
  entry. Finiteness is used to move every operation into the real numbers, where the sum factors.
-/
import proofs.«150509_j23115513987349_2_alg».proof.Proof.RefRead
import proofs.«150509_j23115513987349_2_alg».proof.Proof.Spec
import proofs.«150509_j23115513987349_2_alg».proof.Proof.Trig
import proofs.«150509_j23115513987349_2_alg».proof.Proof.LibReal
import proofs.«150509_j23115513987349_2_alg».proof.Proof.LibRealOps

noncomputable section

namespace Cert.Bridge

open Cert.ReferenceIdeal Cert.ReferenceIdeal.RefTerm Cert.ReferenceIdeal.RefRead Idealize.ShloMosaic Idealize.ShloMosaic.ValueIdx
open Cert.LibReal Cert.LibRealOps Cert.Trig

/-! ## The constants -/

/-- The pattern of `0.5` denotes the real number 1/2. -/
theorem half_eq : Ideal.ofBits .f32 0x3F000000#32 = ((1 / 2 : ℝ) : EReal) := by
  simp [Ideal.ofBits, Ideal.ieee, -EReal.coe_mul]; norm_num

/-- The pattern of `1.0` denotes the real number 1. -/
theorem one_eq : Ideal.ofBits .f32 0x3F800000#32 = ((1 : ℝ) : EReal) := by
  simp [Ideal.ofBits, Ideal.ieee, -EReal.coe_mul]; norm_num

/-- The pattern of `-1.0` denotes the real number -1. -/
theorem neg_one_eq : Ideal.ofBits .f32 0xBF800000#32 = ((-1 : ℝ) : EReal) := by
  simp [Ideal.ofBits, Ideal.ieee, -EReal.coe_mul]; norm_num

/-- The angle scale is a real number. -/
theorem alpha_isR : IsR (Ideal.ofBits .f32 0x3FC8F5C3#32) := by
  refine ⟨13170115 / 8388608, ?_⟩
  simp [Ideal.ofBits, Ideal.ieee, -EReal.coe_mul]; norm_num

/-- The table of signs holds the sign of outcome `k` for qubit `i`. -/
theorem lit1_eq (k : Fin 16) (i : Fin 4) :
    lit1 ⟨4 * k.val + i.val, by omega⟩ = if bit k i = 0 then 0x3F800000#32 else 0xBF800000#32 := by
  revert k i
  decide

theorem signTab_eq (k : Fin 16) (i : Fin 4) : signTab (ix2 k i) = ((sgn k i : ℝ) : EReal) := by
  rw [signTab_apply, lit1_eq]
  unfold sgn
  split
  · exact one_eq
  · exact neg_one_eq

/-! ## A row over the reals -/

section Row
variable (x : FVec Ideal S1048576x4 .f32) (r : Fin 1048576) (a : ℝ) (xr : Fin 4 → ℝ)
  (ha : Ideal.ofBits .f32 0x3FC8F5C3#32 = (a : EReal)) (hx : ∀ j, x (ix2 r j) = ((xr j : ℝ) : EReal))
include ha hx

theorem half_real (j : Fin 4) : half x (ix2 r j) = ((1 / 2 * (a * xr j) : ℝ) : EReal) := by
  rw [half_apply, half_eq, ha, hx, ← EReal.coe_mul, ← EReal.coe_mul]

theorem ent_real (j : Fin 4) (q : Fin 2) :
    ent x r j q = ((f (fun j => Real.cos (1 / 2 * (a * xr j))) (fun j => Real.sin (1 / 2 * (a * xr j))) j q : ℝ) : EReal) := by
  unfold ent f
  split
  · rw [cosA_apply, half_real x r a xr ha hx, Ideal.cos_coe]
  · rw [sinA_apply, half_real x r a xr ha hx, Ideal.sin_coe]

theorem amp4_real (b : Fin 16) :
    amp4 x (ix2 r b)
      = ((amp (fun j => Real.cos (1 / 2 * (a * xr j))) (fun j => Real.sin (1 / 2 * (a * xr j))) b : ℝ) : EReal) := by
  rw [amp4_bits, one_eq, ent_real x r a xr ha hx, ent_real x r a xr ha hx, ent_real x r a xr ha hx, ent_real x r a xr ha hx,
    ← EReal.coe_mul, ← EReal.coe_mul, ← EReal.coe_mul, ← EReal.coe_mul]
  rfl

/-- The reference's entry `(r, i)`, over the reals. -/
theorem out_real (i : Fin 4) :
    out x (ix2 r i) = ((rowR (fun j => Real.cos (a * xr j)) i : ℝ) : EReal) := by
  rw [out_apply]
  have e : ∀ k : Fin 16, amp4 x (ix2 r (permF k)) * amp4 x (ix2 r (permF k)) * signTab (ix2 k i)
      = ((amp (fun j => Real.cos (1 / 2 * (a * xr j))) (fun j => Real.sin (1 / 2 * (a * xr j))) (permF k)
          * amp (fun j => Real.cos (1 / 2 * (a * xr j))) (fun j => Real.sin (1 / 2 * (a * xr j))) (permF k) * sgn k i : ℝ) : EReal) := by
    intro k
    rw [amp4_real x r a xr ha hx, signTab_eq, ← EReal.coe_mul, ← EReal.coe_mul]
  rw [Finset.sum_congr rfl fun k _ => e k, ← coe_sum,
    expect _ _ (fun j => Real.cos_sq_add_sin_sq _) i]
  refine congrArg (fun d : Fin 4 → ℝ => ((rowR d i : ℝ) : EReal)) (funext fun j => ?_)
  show Real.cos (1 / 2 * (a * xr j)) ^ 2 - Real.sin (1 / 2 * (a * xr j)) ^ 2 = Real.cos (a * xr j)
  have h2 : a * xr j = 2 * (1 / 2 * (a * xr j)) := by ring
  rw [h2, Real.cos_two_mul, ← h2]
  have := Real.sin_sq_add_cos_sq (1 / 2 * (a * xr j))
  linarith

/-- The specification's entry `(r, i)`, over the reals. -/
theorem spec_real (i : Fin 4) :
    Cert.Spec.G x (ix2 r i) = ((rowR (fun j => Real.cos (a * xr j)) i : ℝ) : EReal) := by
  have hc : ∀ j, Cert.Spec.c x r j = ((Real.cos (a * xr j) : ℝ) : EReal) := by
    intro j
    unfold Cert.Spec.c Cert.Spec.alpha
    rw [ha, hx, ← EReal.coe_mul, Ideal.cos_coe]
  rw [Cert.Spec.G_apply]
  match i with
  | ⟨0, _⟩ => show Cert.Spec.c x r 1 * Cert.Spec.c x r 2 * Cert.Spec.c x r 3 = _; rw [hc, hc, hc, ← EReal.coe_mul, ← EReal.coe_mul]; rfl
  | ⟨1, _⟩ => show Cert.Spec.c x r 0 * Cert.Spec.c x r 1 = _; rw [hc, hc, ← EReal.coe_mul]; rfl
  | ⟨2, _⟩ => show Cert.Spec.c x r 0 * Cert.Spec.c x r 1 * Cert.Spec.c x r 2 = _; rw [hc, hc, hc, ← EReal.coe_mul, ← EReal.coe_mul]; rfl
  | ⟨3, _⟩ =>
    show Cert.Spec.c x r 0 * Cert.Spec.c x r 1 * Cert.Spec.c x r 2 * Cert.Spec.c x r 3 = _
    rw [hc, hc, hc, hc, ← EReal.coe_mul, ← EReal.coe_mul, ← EReal.coe_mul]; rfl

end Row

/-- On an input whose entries are real numbers the reference's result is the specification. -/
theorem out_eq_G (x : FVec Ideal S1048576x4 .f32) (hx : ∀ i, IsR (x i)) : out x = Cert.Spec.G x := by
  funext i
  obtain ⟨r, j, rfl⟩ : ∃ (r : Fin 1048576) (j : Fin 4), i = ix2 r j := ⟨i 0, i 1, eq_ix2 i⟩
  obtain ⟨a, ha⟩ := alpha_isR
  choose xr hxr using fun j : Fin 4 => hx (ix2 r j)
  rw [out_real x r a xr ha hxr j, spec_real x r a xr ha hxr j]

end Cert.Bridge

end
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«150509_j23115513987349_2_alg».proof.Proof.LibReal
import proofs.«150509_j23115513987349_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.Finite.lean ====
/-
  The precondition read back: when the printed test "every entry's absolute value is below +∞" is all ones, every entry
  of the input is a real number.
-/
import proofs.«150509_j23115513987349_2_alg».proof.Pre_finite_inputs
import proofs.«150509_j23115513987349_2_alg».proof.Proof.LibFinite

noncomputable section

namespace Cert.Finite

open Idealize.ShloMosaic Cert.LibReal

theorem entries_real [hP : Cert.Pre_finite_inputs.Facts] (x : FVec Ideal Cert.Pre_finite_inputs.S1048576x4 .f32)
    (h : Cert.Pre_finite_inputs.fn (F := Ideal) x = fun _ => 1#1) (i : Cert.Pre_finite_inputs.S1048576x4.Idx) : IsR (x i) := by
  have e := congrFun h ValueIdx.ix0
  dsimp only [Cert.Pre_finite_inputs.fn] at e
  exact Cert.LibFinite.isR_of_all_finite x _ _ _ ValueIdx.ix0 e i

end Cert.Finite

end
-- ==== Proof.lean ====
/-
  The kernel and the reference compute the same array on finite inputs.

  Input: `x`, 1048576 rows of 4 angles. With `α` the single-precision constant nearest 1.57, the kernel lays the rows
  out as a `[4, 8192, 128]` stack, takes `cos (α · x)` entrywise and stores four products of the four cosine planes:
  `c₁ c₂ c₃`, `c₀ c₁`, `c₀ c₁ c₂`, `c₀ c₁ c₂ c₃`; laid back out, row `r` of its result holds those four products of
  `cos (α · x[r, j])` (Proof/KernelBlock.lean, Proof/KernelValue.lean, over the specification Proof/Spec.lean). This needs
  no finiteness: it holds on all extended reals.

  The reference prepares the four-qubit product state with amplitudes `cos (α x[r, j] / 2)`, `sin (α x[r, j] / 2)`,
  permutes its sixteen amplitudes by the ring of controlled negations, squares them and sums them against the signs
  `±1` of each qubit's bit (Proof/RefRun.lean: its 74 operations and their run; Proof/RefTerm.lean: the result as one
  term; Proof/RefRead.lean: that term at an index, over the layout lemmas of Proof/LibKron.lean). Over the reals the
  signed sum factors into `cos² - sin²` of the half angles of the qubits the bit depends on, and `cos² + sin² = 1` for the
  others (Proof/Trig.lean); `cos² - sin²` of the half angle is the cosine of the angle, which is the kernel's factor
  (Proof/Bridge.lean). The factoring uses distributivity and cancellation, which fail at infinities, so here the
  precondition is used: every entry of `x` is a real number (Proof/Finite.lean).

  The kernel's idealization rewrote nothing, so it preserves the kernel trivially. The three frames are the generated
  frame runs of the two kernel programs and the reference's run with the result dropped.
-/
import proofs.«150509_j23115513987349_2_alg».proof.Defs
import proofs.«150509_j23115513987349_2_alg».proof.Proof.Gen.Kernel
import proofs.«150509_j23115513987349_2_alg».proof.Proof.Gen.Kernel.Frame
import proofs.«150509_j23115513987349_2_alg».proof.Proof.Gen.KernelIdeal
import proofs.«150509_j23115513987349_2_alg».proof.Proof.Gen.KernelIdeal.Frame
import proofs.«150509_j23115513987349_2_alg».proof.Proof.Gen.ReferenceIdeal
import proofs.«150509_j23115513987349_2_alg».proof.Proof.Gen.Pre_finite_inputs
import proofs.«150509_j23115513987349_2_alg».proof.Proof.KernelValue
import proofs.«150509_j23115513987349_2_alg».proof.Proof.RefRun
import proofs.«150509_j23115513987349_2_alg».proof.Proof.RefTerm
import proofs.«150509_j23115513987349_2_alg».proof.Proof.Bridge
import proofs.«150509_j23115513987349_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference runs and leaves its input as launched: no operation writes the input buffer. -/
theorem frame_ri : Cert.frame_ReferenceIdeal := fun m ρ _ =>
  (θ_run Cert.ReferenceIdeal.defs _ _).mono
    (fun _ h c => (h c Cert.ReferenceIdeal.main_arg0).trans (Cert.ReferenceIdeal.RefTerm.after_arg0 _))
    (Cert.ReferenceIdeal.RefRun.run (F := Ideal) m ρ)

/-- Both programs end with the specification's array of the input: the kernel on any input, the reference on an input
    whose entries are real numbers, which the precondition gives. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨?_, ?_⟩)
    (Cert.ReferenceIdeal.RefRun.run (F := Ideal) m' ρ')
  · refine (h c Cert.ReferenceIdeal.main_v66).trans ?_
    refine (Cert.ReferenceIdeal.RefTerm.after_v66 _).trans ?_
    show Cert.ReferenceIdeal.RefTerm.out (m' ((c.tc : Thread Cert.ReferenceIdeal.nD Cert.ReferenceIdeal.τ).loc Cert.ReferenceIdeal.main_arg0)) = _
    rw [hagree c]
    exact Cert.Bridge.out_eq_G _ (fun i => Cert.Finite.entries_real _ (hpre c) i)
  · exact (h c Cert.ReferenceIdeal.main_arg0).trans (Cert.ReferenceIdeal.RefTerm.after_arg0 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
